-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x8 : Shape := ⟨2, ![32, 8]⟩
abbrev S8 : Shape := ⟨1, ![8]⟩
abbrev S16x1 : Shape := ⟨2, ![16, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x8 .f32) (main_arg9 : FVec F S8 .f32) (main_arg10 : FVec F S16x1 .f32) (main_arg11 : FVec F S1 .f32) (main_v33 : IVec S_ 1) : IVec S_ 1 :=
  let main_v34 : FVec F S32x8 .f32 := Host.absf main_arg8
  let main_cst_12 : FVec F S_ .f32 := constant S_ .f32 0x7F800000#32
  let main_v35 : FVec F S32x8 .f32 := broadcastInDim S32x8 ![] bcast_S_S32x8 main_cst_12
  let main_v36 : IVec S32x8 1 := cmpf .olt main_v34 main_v35
  let main_c_13 : IVec S_ 1 := constantI S_ 1 1#1
  let main_v37 : IVec S_ 1 := (fun x v => Host.reduce IntOp.andi x v reducesTo_S32x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S16x1 .f32 := Host.absf main_arg10
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S8 .f32) (main_arg6 : FVec F S32x8 .f32) (main_arg7 : FVec F S8 .f32) (main_arg8 : FVec F S32x8 .f32) (main_arg9 : FVec F S8 .f32) (main_arg10 : FVec F S16x1 .f32) (main_arg11 : FVec F S1 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S32x8 .f32 := Host.absf main_arg6
  let main_cst_8 : FVec F S_ .f32 := constant S_ .f32 0x7F800000#32
  let main_v25 : FVec F S32x8 .f32 := broadcastInDim S32x8 ![] bcast_S_S32x8 main_cst_8
  let main_v26 : IVec S32x8 1 := cmpf .olt main_v24 main_v25
  let main_c_9 : IVec S_ 1 := constantI S_ 1 1#1
  let main_v27 : IVec S_ 1 := (fun x v => Host.reduce IntOp.andi x v reducesTo_S32x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x512 .f32) (main_arg1 : IVec S2x1600000 32) (main_arg2 : FVec F S512x32 .f32) (main_arg3 : FVec F S32 .f32) (main_arg4 : FVec F S32x8 .f32) (main_arg5 : FVec F S8 .f32) (main_arg6 : FVec F S32x8 .f32) (main_arg7 : FVec F S8 .f32) (main_arg8 : FVec F S32x8 .f32) (main_arg9 : FVec F S8 .f32) (main_arg10 : FVec F S16x1 .f32) (main_arg11 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x8 .f32 := Host.absf main_arg4
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg5 main_arg6 main_arg7 main_arg8 main_arg9 main_arg10 main_arg11 main_v13 main_v16
-- ==== Kernel.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x8 : Shape := ⟨2, ![32, 8]⟩
abbrev S8 : Shape := ⟨1, ![8]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S100000x32 : Shape := ⟨2, ![100000, 32]⟩
abbrev S5000x512 : Shape := ⟨2, ![5000, 512]⟩
abbrev S5000x32 : Shape := ⟨2, ![5000, 32]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S1700000x32 : Shape := ⟨2, ![1700000, 32]⟩
abbrev S1x32 : Shape := ⟨2, ![1, 32]⟩
abbrev S100000x8 : Shape := ⟨2, ![100000, 8]⟩
abbrev S10000x32 : Shape := ⟨2, ![10000, 32]⟩
abbrev S10000x8 : Shape := ⟨2, ![10000, 8]⟩
abbrev S1x8 : Shape := ⟨2, ![1, 8]⟩
abbrev S8x100000 : Shape := ⟨2, ![8, 100000]⟩
abbrev S1600000x1 : Shape := ⟨2, ![1600000, 1]⟩
abbrev S8x1600000 : Shape := ⟨2, ![8, 1600000]⟩
abbrev S8x80000 : Shape := ⟨2, ![8, 80000]⟩
abbrev S1x80000 : Shape := ⟨2, ![1, 80000]⟩
abbrev S16x80000 : Shape := ⟨2, ![16, 80000]⟩
abbrev S1700000x8 : Shape := ⟨2, ![1700000, 8]⟩

abbrev nBuf : Space → Nat
  | .hbm => 158
  | .vmem => 26
  | .smem => 0
  | _ => 0

abbrev hbmTy0_0 (i : Nat) : BufTy := match i % 128 with
  | 0 => ⟨S100000x512, .f32⟩
  | 1 => ⟨S2x1600000, .i32⟩
  | 2 => ⟨S512x32, .f32⟩
  | 3 => ⟨S32, .f32⟩
  | 4 => ⟨S32x8, .f32⟩
  | 5 => ⟨S8, .f32⟩
  | 6 => ⟨S32x8, .f32⟩
  | 7 => ⟨S8, .f32⟩
  | 8 => ⟨S32x8, .f32⟩
  | 9 => ⟨S8, .f32⟩
  | 10 => ⟨S16x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000x32, .f32⟩
  | 17 => ⟨S_, .f32⟩
  | 18 => ⟨S1600000, .f32⟩
  | 19 => ⟨S100000, .i32⟩
  | 20 => ⟨S1700000, .i32⟩
  | 21 => ⟨S1700000, .i32⟩
  | 22 => ⟨S_, .f32⟩
  | 23 => ⟨S100000, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x32, .f32⟩
  | 66 => ⟨S1700000x1, .f32⟩
  | 67 => ⟨S1700000x32, .f32⟩
  | 68 => ⟨S1700000x32, .f32⟩
  | 69 => ⟨S_, .f32⟩
  | 70 => ⟨S100000x32, .f32⟩
  | 71 => ⟨S1700000x1, .i32⟩
  | 72 => ⟨S100000x32, .f32⟩
  | 73 => ⟨S1x32, .f32⟩
  | 74 => ⟨S100000x32, .f32⟩
  | 75 => ⟨S100000x32, .f32⟩
  | 76 => ⟨S100000x8, .f32⟩
  | 77 => ⟨S100000x8, .f32⟩
  | 78 => ⟨S100000x8, .f32⟩
  | 79 => ⟨S8x100000, .f32⟩
  | 80 => ⟨S8x100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S8x1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S8x1600000, .f32⟩
  | 99 => ⟨S1x1600000, .f32⟩
  | 100 => ⟨S1600000, .f32⟩
  | 101 => ⟨S100000, .i32⟩
  | 102 => ⟨S1700000, .i32⟩
  | 103 => ⟨S1700000, .i32⟩
  | 104 => ⟨S_, .f32⟩
  | 105 => ⟨S100000, .f32⟩
  | 106 => ⟨S1700000, .f32⟩
  | 107 => ⟨S_, .f32⟩
  | 108 => ⟨S100000, .f32⟩
  | 109 => ⟨S1700000x1, .i32⟩
  | 110 => ⟨S100000, .f32⟩
  | 111 => ⟨S_, .f32⟩
  | 112 => ⟨S100000, .f32⟩
  | 113 => ⟨S100000, .i1⟩
  | 114 => ⟨S100000, .f32⟩
  | 115 => ⟨S_, .f32⟩
  | 116 => ⟨S_, .f32⟩
  | 117 => ⟨S100000, .f32⟩
  | 118 => ⟨S100000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x512, .f32⟩

abbrev hbmTy0_1 (i : Nat) : BufTy := match i % 128 with
  | 0 => ⟨S1700000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000, .f32⟩
  | 10 => ⟨S1700000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x8, .f32⟩
  | 20 => ⟨S1700000x1, .f32⟩
  | 21 => ⟨S1700000x8, .f32⟩
  | 22 => ⟨S1700000x8, .f32⟩
  | 23 => ⟨S_, .f32⟩
  | 24 => ⟨S100000x8, .f32⟩
  | 25 => ⟨S1700000x1, .i32⟩
  | 26 => ⟨S100000x8, .f32⟩
  | 27 => ⟨S1x8, .f32⟩
  | 28 => ⟨S100000x8, .f32⟩
  | 29 => ⟨S100000x8, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x32, .f32⟩
  | .local _ .vmem, ⟨3, _⟩ => ⟨S5000x32, .f32⟩
  | .local _ .vmem, ⟨4, _⟩ => ⟨S5000x32, .f32⟩
  | .local _ .vmem, ⟨5, _⟩ => ⟨S10000x32, .f32⟩
  | .local _ .vmem, ⟨6, _⟩ => ⟨S10000x32, .f32⟩
  | .local _ .vmem, ⟨7, _⟩ => ⟨S32x8, .f32⟩
  | .local _ .vmem, ⟨8, _⟩ => ⟨S8, .f32⟩
  | .local _ .vmem, ⟨9, _⟩ => ⟨S32x8, .f32⟩
  | .local _ .vmem, ⟨10, _⟩ => ⟨S8, .f32⟩
  | .local _ .vmem, ⟨11, _⟩ => ⟨S32x8, .f32⟩
  | .local _ .vmem, ⟨12, _⟩ => ⟨S10000x8, .f32⟩
  | .local _ .vmem, ⟨13, _⟩ => ⟨S10000x8, .f32⟩
  | .local _ .vmem, ⟨14, _⟩ => ⟨S10000x8, .f32⟩
  | .local _ .vmem, ⟨15, _⟩ => ⟨S10000x8, .f32⟩
  | .local _ .vmem, ⟨16, _⟩ => ⟨S10000x8, .f32⟩
  | .local _ .vmem, ⟨17, _⟩ => ⟨S10000x8, .f32⟩
  | .local _ .vmem, ⟨18, _⟩ => ⟨S8x80000, .f32⟩
  | .local _ .vmem, ⟨19, _⟩ => ⟨S8x80000, .f32⟩
  | .local _ .vmem, ⟨20, _⟩ => ⟨S8x80000, .f32⟩
  | .local _ .vmem, ⟨21, _⟩ => ⟨S8x80000, .f32⟩
  | .local _ .vmem, ⟨22, _⟩ => ⟨S16x1, .f32⟩
  | .local _ .vmem, ⟨23, _⟩ => ⟨S1, .f32⟩
  | .local _ .vmem, ⟨24, _⟩ => ⟨S1x80000, .f32⟩
  | .local _ .vmem, ⟨25, _⟩ => ⟨S1x80000, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50_0 : Ref sig .tc := ⟨.hbm, 76, rfl⟩
abbrev main_v50_1 : Ref sig .tc := ⟨.hbm, 77, rfl⟩
abbrev main_v50_2 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_call1_v0 : Ref sig .tc := ⟨.hbm, 116, rfl⟩
abbrev main_call1_v1 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_20 : Ref sig .tc := ⟨.hbm, 129, rfl⟩
abbrev main_v89 : Ref sig .tc := ⟨.hbm, 130, rfl⟩
abbrev main_v90 : Ref sig .tc := ⟨.hbm, 131, rfl⟩
abbrev main_c_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_22 : Ref sig .tc := ⟨.hbm, 139, rfl⟩
abbrev main_v97 : Ref sig .tc := ⟨.hbm, 140, rfl⟩
abbrev main_v98 : Ref sig .tc := ⟨.hbm, 141, rfl⟩
abbrev main_c_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc1_sem7_1 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S10000x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S8x80000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x80000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x80000 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x8_S32x8_0_0 : ∀ a, (![0, 0] : Fin 2 → Nat) a + S32x8.size a ≤ S32x8.size a
  h_S32x8 : 0 < S32x8.numel
  inb_S8_S8_0 : ∀ a, (![0] : Fin 1 → Nat) a + S8.size a ≤ S8.size a
  h_S8 : 0 < S8.numel
  shapeCasts_S8_S1x8 : S8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  transposes_S100000x8_S8x100000_1_0 : S100000x8.Transposes [1, 0] S8x100000
  bcast_S1600000_S1600000x1_0 : S1600000.BroadcastsInDim S1600000x1 (![0] : Fin 1 → Fin S1600000x1.rank)
  inb_S8x80000_S8x80000_0_0 : ∀ a, (![0, 0] : Fin 2 → Nat) a + S8x80000.size a ≤ S8x80000.size a
  h_S8x80000 : 0 < S8x80000.numel
  shapeCasts_S8x80000_S8x80000 : S8x80000.ShapeCasts S8x80000
  concatenates_S8x80000_S8x80000_S16x80000_d0 : Shape.Concatenates [S8x80000, S8x80000] S16x80000 0
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  inpos_S1_p0 : ∀ a, (![0] : Fin 1 → Nat) a < S1.size a
  inb_S1x80000_S1x80000_0_0 : ∀ a, (![0, 0] : Fin 2 → Nat) a + S1x80000.size a ≤ S1x80000.size a
  h_S1x80000 : 0 < S1x80000.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S5000x512_S512x32_S5000x32_1_0_0_1_n_n_wf : DotDims.WF S5000x512 S512x32 S5000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x8_S10000x8_1_0_0_1_n_n_wf : DotDims.WF S10000x32 S32x8 S10000x8 [1] [0] [0] [1] [] []
  gather_S8x100000_S1600000x1_S8x1600000_0_1_n_n_1_1_81_wf : GatherDims.WF S8x100000 S1600000x1 S8x1600000 [0] [1] [] [1] [] 1 ![8, 1]
  dot_S16x1_S16x80000_S1x80000_0_0_1_1_n_n_wf : DotDims.WF S16x1 S16x80000 S1x80000 [0] [0] [1] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x8.size a ≤ S32x8.size a
  hwx1_1 : ∀ i : grid1.Coords, EltTy.bits .f32 = 32 ∨ (Rect.block (s := S32x8) S32x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8.size a ≤ S8.size a
  hwx1_2 : ∀ i : grid1.Coords, EltTy.bits .f32 = 32 ∨ (Rect.block (s := S8) S8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x8.size a ≤ S32x8.size a
  hwx1_3 : ∀ i : grid1.Coords, EltTy.bits .f32 = 32 ∨ (Rect.block (s := S32x8) S32x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8.size a ≤ S8.size a
  hwx1_4 : ∀ i : grid1.Coords, EltTy.bits .f32 = 32 ∨ (Rect.block (s := S8) S8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x8.size a ≤ S32x8.size a
  hwx1_5 : ∀ i : grid1.Coords, EltTy.bits .f32 = 32 ∨ (Rect.block (s := S32x8) S32x8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x8.size a ≤ S100000x8.size a
  hwx1_6 : ∀ i : grid1.Coords, EltTy.bits .f32 = 32 ∨ (Rect.block (s := S100000x8) S10000x8.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x8.size a ≤ S100000x8.size a
  hwx1_7 : ∀ i : grid1.Coords, EltTy.bits .f32 = 32 ∨ (Rect.block (s := S100000x8) S10000x8.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x8.size a ≤ S100000x8.size a
  hwx1_8 : ∀ i : grid1.Coords, EltTy.bits .f32 = 32 ∨ (Rect.block (s := S100000x8) S10000x8.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x80000.size a ≤ S8x1600000.size a
  hwx2_0 : ∀ i : grid2.Coords, EltTy.bits .f32 = 32 ∨ (Rect.block (s := S8x1600000) S8x80000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x80000.size a ≤ S8x1600000.size a
  hwx2_1 : ∀ i : grid2.Coords, EltTy.bits .f32 = 32 ∨ (Rect.block (s := S8x1600000) S8x80000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1.size a ≤ S1.size a
  hwx2_3 : ∀ i : grid2.Coords, EltTy.bits .f32 = 32 ∨ (Rect.block (s := S1) S1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x80000.size a ≤ S1x1600000.size a
  hwx2_4 : ∀ i : grid2.Coords, EltTy.bits .f32 = 32 ∨ (Rect.block (s := S1x1600000) S1x80000.size (cc2_transform_4 i) (hinb2_4 i)).WholeWords (EltTy.packing .f32)

variable [Facts₀]

def dot_S5000x512_S512x32_S5000x32_1_0_0_1_n_n : DotDims S5000x512 S512x32 S5000x32 where
  lhsContracting := [1]
  rhsContracting := [0]
  lhsNonContracting := [0]
  rhsNonContracting := [1]
  lhsBatch := []
  rhsBatch := []
  wf := dot_S5000x512_S512x32_S5000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x8_S10000x8_1_0_0_1_n_n : DotDims S10000x32 S32x8 S10000x8 where
  lhsContracting := [1]
  rhsContracting := [0]
  lhsNonContracting := [0]
  rhsNonContracting := [1]
  lhsBatch := []
  rhsBatch := []
  wf := dot_S10000x32_S32x8_S10000x8_1_0_0_1_n_n_wf
def gather_S8x100000_S1600000x1_S8x1600000_0_1_n_n_1_1_81 : GatherDims S8x100000 S1600000x1 S8x1600000 where
  offsetDims := [0]
  collapsedSliceDims := [1]
  operandBatchingDims := []
  startIndicesBatchingDims := []
  startIndexMap := [1]
  indexVectorDim := 1
  sliceSizes := ![8, 1]
  wf := gather_S8x100000_S1600000x1_S8x1600000_0_1_n_n_1_1_81_wf
def dot_S16x1_S16x80000_S1x80000_0_0_1_1_n_n : DotDims S16x1 S16x80000 S1x80000 where
  lhsContracting := [0]
  rhsContracting := [0]
  lhsNonContracting := [1]
  rhsNonContracting := [1]
  lhsBatch := []
  rhsBatch := []
  wf := dot_S16x1_S16x80000_S1x80000_0_0_1_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S32x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50_0) S10000x8.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v50_1) S10000x8.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v50_2) S10000x8.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v59) S8x80000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S8x80000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x80000.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x32 : Shape := ⟨2, ![512, 32]⟩
abbrev S32 : Shape := ⟨1, ![32]⟩
abbrev S32x8 : Shape := ⟨2, ![32, 8]⟩
abbrev S8 : Shape := ⟨1, ![8]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000x32 : Shape := ⟨2, ![100000, 32]⟩
abbrev S100000 : Shape := ⟨1, ![100000]⟩
abbrev S1700000 : Shape := ⟨1, ![1700000]⟩
abbrev S1700000x1 : Shape := ⟨2, ![1700000, 1]⟩
abbrev S1700000x32 : Shape := ⟨2, ![1700000, 32]⟩
abbrev S1x32 : Shape := ⟨2, ![1, 32]⟩
abbrev S1600000x1 : Shape := ⟨2, ![1600000, 1]⟩
abbrev S1600000x32 : Shape := ⟨2, ![1600000, 32]⟩
abbrev S1600000x8 : Shape := ⟨2, ![1600000, 8]⟩
abbrev S1x8 : Shape := ⟨2, ![1, 8]⟩
abbrev S1600000x16 : Shape := ⟨2, ![1600000, 16]⟩
abbrev S1x1 : Shape := ⟨2, ![1, 1]⟩
abbrev S100000x8 : Shape := ⟨2, ![100000, 8]⟩
abbrev S1700000x8 : Shape := ⟨2, ![1700000, 8]⟩

abbrev nBuf : Space → Nat
  | .hbm => 192
  | .vmem => 0
  | .smem => 0
  | _ => 0

abbrev hbmTy0_0 (i : Nat) : BufTy := match i % 128 with
  | 0 => ⟨S100000x512, .f32⟩
  | 1 => ⟨S2x1600000, .i32⟩
  | 2 => ⟨S512x32, .f32⟩
  | 3 => ⟨S32, .f32⟩
  | 4 => ⟨S32x8, .f32⟩
  | 5 => ⟨S8, .f32⟩
  | 6 => ⟨S32x8, .f32⟩
  | 7 => ⟨S8, .f32⟩
  | 8 => ⟨S32x8, .f32⟩
  | 9 => ⟨S8, .f32⟩
  | 10 => ⟨S16x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S100000x32, .f32⟩
  | 19 => ⟨S100000, .i32⟩
  | 20 => ⟨S1700000, .i32⟩
  | 21 => ⟨S1700000, .i32⟩
  | 22 => ⟨S_, .f32⟩
  | 23 => ⟨S100000, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x32, .f32⟩
  | 66 => ⟨S1700000x1, .f32⟩
  | 67 => ⟨S1700000x32, .f32⟩
  | 68 => ⟨S1700000x32, .f32⟩
  | 69 => ⟨S_, .f32⟩
  | 70 => ⟨S100000x32, .f32⟩
  | 71 => ⟨S1700000x1, .i32⟩
  | 72 => ⟨S100000x32, .f32⟩
  | 73 => ⟨S1x32, .f32⟩
  | 74 => ⟨S100000x32, .f32⟩
  | 75 => ⟨S100000x32, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x32, .f32⟩
  | 85 => ⟨S1600000x8, .f32⟩
  | 86 => ⟨S1x8, .f32⟩
  | 87 => ⟨S1600000x8, .f32⟩
  | 88 => ⟨S1600000x8, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x32, .f32⟩
  | 98 => ⟨S1600000x8, .f32⟩
  | 99 => ⟨S1x8, .f32⟩
  | 100 => ⟨S1600000x8, .f32⟩
  | 101 => ⟨S1600000x8, .f32⟩
  | 102 => ⟨S1600000x16, .f32⟩
  | 103 => ⟨S1600000x1, .f32⟩
  | 104 => ⟨S1x1, .f32⟩
  | 105 => ⟨S1600000x1, .f32⟩
  | 106 => ⟨S1600000x1, .f32⟩
  | 107 => ⟨S_, .f32⟩
  | 108 => ⟨S1600000x1, .f32⟩
  | 109 => ⟨S1600000x1, .f32⟩
  | 110 => ⟨S1600000x1, .f32⟩
  | 111 => ⟨S1600000x1, .f32⟩
  | 112 => ⟨S_, .f32⟩
  | 113 => ⟨S1600000x1, .f32⟩
  | 114 => ⟨S1600000x1, .f32⟩
  | 115 => ⟨S_, .f32⟩
  | 116 => ⟨S1600000x1, .f32⟩
  | 117 => ⟨S1600000x1, .f32⟩
  | 118 => ⟨S_, .f32⟩
  | 119 => ⟨S1600000x1, .f32⟩
  | 120 => ⟨S1600000x1, .f32⟩
  | 121 => ⟨S_, .f32⟩
  | 122 => ⟨S1600000x1, .f32⟩
  | 123 => ⟨S1600000x1, .f32⟩
  | 124 => ⟨S_, .f32⟩
  | 125 => ⟨S_, .f32⟩
  | 126 => ⟨S_, .f32⟩
  | 127 => ⟨S1600000x1, .f32⟩
  | _ => ⟨S100000x512, .f32⟩

abbrev hbmTy0_1 (i : Nat) : BufTy := match i % 128 with
  | 0 => ⟨S1600000x1, .f32⟩
  | 1 => ⟨S_, .f32⟩
  | 2 => ⟨S1600000x1, .f32⟩
  | 3 => ⟨S1600000x1, .f32⟩
  | 4 => ⟨S1600000x1, .f32⟩
  | 5 => ⟨S1600000, .f32⟩
  | 6 => ⟨S100000x8, .f32⟩
  | 7 => ⟨S100000, .i32⟩
  | 8 => ⟨S1700000, .i32⟩
  | 9 => ⟨S1700000, .i32⟩
  | 10 => ⟨S_, .f32⟩
  | 11 => ⟨S100000, .f32⟩
  | 12 => ⟨S1700000, .f32⟩
  | 13 => ⟨S_, .f32⟩
  | 14 => ⟨S100000, .f32⟩
  | 15 => ⟨S1700000x1, .i32⟩
  | 16 => ⟨S100000, .f32⟩
  | 17 => ⟨S_, .f32⟩
  | 18 => ⟨S100000, .f32⟩
  | 19 => ⟨S100000, .i1⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x8, .f32⟩
  | 54 => ⟨S1700000x1, .f32⟩
  | 55 => ⟨S1700000x8, .f32⟩
  | 56 => ⟨S1700000x8, .f32⟩
  | 57 => ⟨S_, .f32⟩
  | 58 => ⟨S100000x8, .f32⟩
  | 59 => ⟨S1700000x1, .i32⟩
  | 60 => ⟨S100000x8, .f32⟩
  | 61 => ⟨S1x8, .f32⟩
  | 62 => ⟨S100000x8, .f32⟩
  | 63 => ⟨S100000x8, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call1_cst : Ref sig .tc := ⟨.hbm, 107, rfl⟩
abbrev main_call1_v0 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev main_cst_18 : Ref sig .tc := ⟨.hbm, 124, rfl⟩
abbrev main_cst_19 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_call3_v0 : Ref sig .tc := ⟨.hbm, 150, rfl⟩
abbrev main_call3_v1 : Ref sig .tc := ⟨.hbm, 151, rfl⟩
abbrev main_v103 : Ref sig .tc := ⟨.hbm, 152, rfl⟩
abbrev main_c_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_c_26 : Ref sig .tc := ⟨.hbm, 163, rfl⟩
abbrev main_v112 : Ref sig .tc := ⟨.hbm, 164, rfl⟩
abbrev main_v113 : Ref sig .tc := ⟨.hbm, 165, rfl⟩
abbrev main_c_27 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_28 : Ref sig .tc := ⟨.hbm, 173, rfl⟩
abbrev main_v120 : Ref sig .tc := ⟨.hbm, 174, rfl⟩
abbrev main_v121 : Ref sig .tc := ⟨.hbm, 175, rfl⟩
abbrev main_c_29 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_30 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000_S1600000x1_0 : S1600000.BroadcastsInDim S1600000x1 (![0] : Fin 1 → Fin S1600000x1.rank)
  bcast_S8_S1x8_1 : S8.BroadcastsInDim S1x8 (![1] : Fin 1 → Fin S1x8.rank)
  bcast_S1x8_S1600000x8_0_1 : S1x8.BroadcastsInDim S1600000x8 (![0, 1] : Fin 2 → Fin S1600000x8.rank)
  concatenates_S1600000x8_S1600000x8_S1600000x16_d1 : Shape.Concatenates [S1600000x8, S1600000x8] S1600000x16 1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S1x8_S100000x8_0_1 : S1x8.BroadcastsInDim S100000x8 (![0, 1] : Fin 2 → Fin S100000x8.rank)
  dot_S100000x512_S512x32_S100000x32_1_0_0_1_n_n_wf : DotDims.WF S100000x512 S512x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  gather_S100000x32_S1600000x1_S1600000x32_1_0_n_n_0_1_132_wf : GatherDims.WF S100000x32 S1600000x1 S1600000x32 [1] [0] [] [0] [] 1 ![1, 32]
  dot_S1600000x32_S32x8_S1600000x8_1_0_0_1_n_n_wf : DotDims.WF S1600000x32 S32x8 S1600000x8 [1] [0] [0] [1] [] []
  dot_S1600000x16_S16x1_S1600000x1_1_0_0_1_n_n_wf : DotDims.WF S1600000x16 S16x1 S1600000x1 [1] [0] [0] [1] [] []
  dot_S100000x32_S32x8_S100000x8_1_0_0_1_n_n_wf : DotDims.WF S100000x32 S32x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x32_S32x8_S1600000x8_1_0_0_1_n_n : DotDims S1600000x32 S32x8 S1600000x8 where
  lhsContracting := [1]
  rhsContracting := [0]
  lhsNonContracting := [0]
  rhsNonContracting := [1]
  lhsBatch := []
  rhsBatch := []
  wf := dot_S1600000x32_S32x8_S1600000x8_1_0_0_1_n_n_wf
def dot_S1600000x16_S16x1_S1600000x1_1_0_0_1_n_n : DotDims S1600000x16 S16x1 S1600000x1 where
  lhsContracting := [1]
  rhsContracting := [0]
  lhsNonContracting := [0]
  rhsNonContracting := [1]
  lhsBatch := []
  rhsBatch := []
  wf := dot_S1600000x16_S16x1_S1600000x1_1_0_0_1_n_n_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.Tail.lean ====
/-
  One graph convolution's aggregation, as the composition of array operations both programs apply.

  The edge list (row, col) gets one self loop per node appended, each with weight 1.  A node's degree is the sum of
  the weights of the edges that end at it; dinv is 1/sqrt(degree) where the degree is positive and 0 elsewhere.  An
  edge (r, c) with weight w carries the source's feature row scaled by dinv(r) * w * dinv(c) to its target; the
  result is the sum of what arrives at each node plus a bias row.  A negative node number counts from the end.

  Both programs spell this with the same operations; only the feature rows, the edge weights and the bias differ
  between the two convolutions, so they are the parameters here.
-/
import proofs.«161898_j54245436949038_1_alg».proof.Proof.Gen.ReferenceIdeal

noncomputable section

namespace Cert.Tail

open Cert.ReferenceIdeal Cert.ReferenceIdeal.Gen Idealize.ShloMosaic

variable {F : FTy → Type} [FloatOps F]

/-- A list of 1600000 node numbers followed by the nodes 0 … 99999 themselves (the self loops). -/
def withLoops (v : IVec S1600000 32) : IVec S1700000 32 :=
  concatenate S1700000 0 [⟨S1600000, v⟩, ⟨S100000, (iotaInDim S100000 32 0)⟩] concatenates_S1600000_S100000_S1700000_d0

/-- Node numbers as a one-column index list, a negative number counted from the end. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The edge weights followed by a weight 1 for every self loop. -/
def weights (w : FVec F S1600000 .f32) : FVec F S1700000 .f32 :=
  concatenate S1700000 0 [⟨S1600000, w⟩, ⟨S100000, (broadcastInDim S100000 ![] bcast_S_S100000 (constant S_ .f32 0x3F800000#32))⟩]
    concatenates_S1600000_S100000_S1700000_d0

/-- A node's degree: the weights of the edges ending at it, summed. -/
def degree (col : IVec S1600000 32) (w : FVec F S1600000 .f32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (withLoops col)) (weights w)

/-- 1/sqrt(degree) where the degree is positive, 0 elsewhere. -/
def dinv (col : IVec S1600000 32) (w : FVec F S1600000 .f32) : FVec F S100000 .f32 :=
  select (cmpf .ogt (degree col w) (broadcastInDim S100000 ![] bcast_S_S100000 (constant S_ .f32 0x00000000#32)))
    (Host.rsqrt (degree col w))
    (broadcastInDim S100000 ![] bcast_S_S100000 (id (constant S_ .f32 0x00000000#32)))

/-- An edge's normalisation: dinv at its source, times its weight, times dinv at its target. -/
def norm (row col : IVec S1600000 32) (w : FVec F S1600000 .f32) : FVec F S1700000 .f32 :=
  mulf (mulf (Host.gather gather_S100000_S1700000x1_S1700000_n_0_n_n_0_1_1 (dinv col w) (wrapped (withLoops row))) (weights w))
    (Host.gather gather_S100000_S1700000x1_S1700000_n_0_n_n_0_1_1 (dinv col w) (wrapped (withLoops col)))

/-- The aggregation over 32 feature columns. -/
def conv32 (xw : FVec F S100000x32 .f32) (row col : IVec S1600000 32) (w : FVec F S1600000 .f32) (b : FVec F S32 .f32) :
    FVec F S100000x32 .f32 :=
  addf
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 (withLoops col))
      (mulf (Host.gather gather_S100000x32_S1700000x1_S1700000x32_1_0_n_n_0_1_132 xw (wrapped (withLoops row)))
        (broadcastInDim S1700000x32 ![0, 1] bcast_S1700000x1_S1700000x32_0_1
          (broadcastInDim S1700000x1 ![0] bcast_S1700000_S1700000x1_0 (norm row col w)))))
    (broadcastInDim S100000x32 ![0, 1] bcast_S1x32_S100000x32_0_1 (broadcastInDim S1x32 ![1] bcast_S32_S1x32_1 b))

/-- The aggregation over 8 feature columns. -/
def conv8 (xw : FVec F S100000x8 .f32) (row col : IVec S1600000 32) (w : FVec F S1600000 .f32) (b : FVec F S8 .f32) :
    FVec F S100000x8 .f32 :=
  addf
    (Host.scatterAdd scatter_S100000x8_S1700000x1_S1700000x8_1_0_0_1
      (broadcastInDim S100000x8 ![] bcast_S_S100000x8 (constant S_ .f32 0x00000000#32))
      (broadcastInDim S1700000x1 ![0] bcast_S1700000_S1700000x1_0 (withLoops col))
      (mulf (Host.gather gather_S100000x8_S1700000x1_S1700000x8_1_0_n_n_0_1_18 xw (wrapped (withLoops row)))
        (broadcastInDim S1700000x8 ![0, 1] bcast_S1700000x1_S1700000x8_0_1
          (broadcastInDim S1700000x1 ![0] bcast_S1700000_S1700000x1_0 (norm row col w)))))
    (broadcastInDim S100000x8 ![0, 1] bcast_S1x8_S100000x8_0_1 (broadcastInDim S1x8 ![1] bcast_S8_S1x8_1 b))

/-- The unit edge weights of the first convolution. -/
def unitWeights : FVec F S1600000 .f32 := broadcastInDim S1600000 ![] bcast_S_S1600000 (constant S_ .f32 0x3F800000#32)

end Cert.Tail

end
-- ==== Proof.RefTail.lean ====
/-
  The reference program's two graph convolutions are the shared aggregation of the features, the edge list, the edge
  weights and the bias that enter them: the first of x · W0 with unit weights and bias b0, the second of h · W1 with
  the gated edge weights and bias b1.  Both equations hold by unfolding the operations' names.
-/
import proofs.«161898_j54245436949038_1_alg».proof.Proof.RefRead
import proofs.«161898_j54245436949038_1_alg».proof.Proof.Tail

set_option maxRecDepth 16384

noncomputable section

namespace Cert.RefTail

open Cert.ReferenceIdeal Cert.ReferenceIdeal.ReadP Idealize.ShloMosaic

variable {F : FTy → Type} [FloatOps F]

/-- The hidden features: the first aggregation, of x · W0. -/
theorem v49_eq (x0 : (⟨S100000x512, .f32⟩ : BufTy).Contents (Elt F)) (x1 : (⟨S2x1600000, .i32⟩ : BufTy).Contents (Elt F))
    (x2 : (⟨S512x32, .f32⟩ : BufTy).Contents (Elt F)) (x3 : (⟨S32, .f32⟩ : BufTy).Contents (Elt F)) :
    val_main_v49 (F := F) x0 x1 x2 x3
      = Cert.Tail.conv32 (val_main_v5 (F := F) x0 x2) (val_main_v1 (F := F) x1) (val_main_v3 (F := F) x1) Cert.Tail.unitWeights x3 :=
  rfl

/-- The result: the second aggregation, of h · W1 with the gated weights. -/
theorem v135_eq (x0 : (⟨S100000x512, .f32⟩ : BufTy).Contents (Elt F)) (x1 : (⟨S2x1600000, .i32⟩ : BufTy).Contents (Elt F))
    (x2 : (⟨S512x32, .f32⟩ : BufTy).Contents (Elt F)) (x3 : (⟨S32, .f32⟩ : BufTy).Contents (Elt F))
    (x4 : (⟨S32x8, .f32⟩ : BufTy).Contents (Elt F)) (x5 : (⟨S8, .f32⟩ : BufTy).Contents (Elt F))
    (x6 : (⟨S32x8, .f32⟩ : BufTy).Contents (Elt F)) (x7 : (⟨S8, .f32⟩ : BufTy).Contents (Elt F))
    (x8 : (⟨S32x8, .f32⟩ : BufTy).Contents (Elt F)) (x9 : (⟨S8, .f32⟩ : BufTy).Contents (Elt F))
    (x10 : (⟨S16x1, .f32⟩ : BufTy).Contents (Elt F)) (x11 : (⟨S1, .f32⟩ : BufTy).Contents (Elt F)) :
    val_main_v135 (F := F) x0 x1 x2 x3 x4 x5 x6 x7 x8 x9 x10 x11
      = Cert.Tail.conv8 (val_main_v91 (F := F) x0 x1 x2 x3 x4) (val_main_v1 (F := F) x1) (val_main_v3 (F := F) x1)
          (val_main_v90 (F := F) x0 x1 x2 x3 x6 x7 x8 x9 x10 x11) x5 :=
  rfl

end Cert.RefTail

end
-- ==== Proof.LibHostReads.lean ====
/-
  Reading a line of host operations at a buffer, below an operand list.

  The buffers after a line of host operations are a fold: each operation rewrites its result buffer to its function of
  its operands' contents and leaves every other buffer as it was. One rewriting pass (`after_results_simp`) computes
  such a read down to the arguments, except below an operand LIST — the pieces of a concatenation, a list of pairs
  (shape, array) — where the pass does not descend and leaves reads of the form "this operation's result over what
  came before, at that buffer". The tactic `host_reads` finishes those reads one operation at a time: an operation's
  result at its own buffer is its function's value, at another buffer what was there (the two buffers told apart as
  references). Use: `simp only [<the list's name>]; after_results_simp; host_reads`, then `rfl` or the certificate's
  own lemma. General: nothing here depends on a program.
-/
import Idealize.ShloMosaic.Lib.StableHlo.Run

namespace Cert.LibHostReads

open Idealize.ShloMosaic Idealize.ShloMosaic.StableHlo

/-- Each operation's result at its own buffer is its function's value, at another buffer what was there. -/
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

end Cert.LibHostReads
-- ==== Proof.RefRunH.lean ====
/-
  The reference program's run, read stage by stage.

  The reference is 180 host operations in a row: the first 64 end with the hidden features (the first graph
  convolution), the next 59 with the per-edge weights and the product h · W1, the last 57 with the result (the second
  graph convolution).  The buffer contents after the whole line are the contents after the third stage from the
  contents after the second from the contents after the first; at each stage the few buffers the next stage reads are
  read back as the composed term of the arguments that the read-at-an-index lemmas are stated over.  No argument array
  is ever written, so each ends as launched.
-/
import proofs.«161898_j54245436949038_1_alg».proof.Proof.RefOps
import proofs.«161898_j54245436949038_1_alg».proof.Proof.RefTail
import proofs.«161898_j54245436949038_1_alg».proof.Proof.LibHostReads
import Idealize.ShloMosaic.Lib.Pipeline.Frame

set_option maxRecDepth 16384

noncomputable section

namespace Cert.RefRunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The first stage: the edge lists and the hidden features -/

theorem s1_v49 (V : Valuation τ sig (Elt F)) :
    after ops1 V (Proc.devRef .tc main_v49) = val_main_v49 (F := F) (V (Proc.devRef .tc main_arg0)) (V (Proc.devRef .tc main_arg1)) (V (Proc.devRef .tc main_arg2)) (V (Proc.devRef .tc main_arg3)) := by
  after_results_simp
  rfl
theorem s1_v1 (V : Valuation τ sig (Elt F)) :
    after ops1 V (Proc.devRef .tc main_v1) = val_main_v1 (F := F) (V (Proc.devRef .tc main_arg1)) := by
  after_results_simp
  rfl
theorem s1_v3 (V : Valuation τ sig (Elt F)) :
    after ops1 V (Proc.devRef .tc main_v3) = val_main_v3 (F := F) (V (Proc.devRef .tc main_arg1)) := by
  after_results_simp
  rfl
theorem s1_arg4 (V : Valuation τ sig (Elt F)) : after ops1 V (Proc.devRef .tc main_arg4) = V (Proc.devRef .tc main_arg4) := by
  after_results_simp
theorem s1_arg5 (V : Valuation τ sig (Elt F)) : after ops1 V (Proc.devRef .tc main_arg5) = V (Proc.devRef .tc main_arg5) := by
  after_results_simp
theorem s1_arg6 (V : Valuation τ sig (Elt F)) : after ops1 V (Proc.devRef .tc main_arg6) = V (Proc.devRef .tc main_arg6) := by
  after_results_simp
theorem s1_arg7 (V : Valuation τ sig (Elt F)) : after ops1 V (Proc.devRef .tc main_arg7) = V (Proc.devRef .tc main_arg7) := by
  after_results_simp
theorem s1_arg8 (V : Valuation τ sig (Elt F)) : after ops1 V (Proc.devRef .tc main_arg8) = V (Proc.devRef .tc main_arg8) := by
  after_results_simp
theorem s1_arg9 (V : Valuation τ sig (Elt F)) : after ops1 V (Proc.devRef .tc main_arg9) = V (Proc.devRef .tc main_arg9) := by
  after_results_simp
theorem s1_arg10 (V : Valuation τ sig (Elt F)) : after ops1 V (Proc.devRef .tc main_arg10) = V (Proc.devRef .tc main_arg10) := by
  after_results_simp
theorem s1_arg11 (V : Valuation τ sig (Elt F)) : after ops1 V (Proc.devRef .tc main_arg11) = V (Proc.devRef .tc main_arg11) := by
  after_results_simp

/-! ## The second stage: the edge weights and the product h · W1 -/

theorem s2_v91 (V : Valuation τ sig (Elt F)) :
    after ops2 V (Proc.devRef .tc main_v91)
      = Host.dotGeneral dot_S100000x32_S32x8_S100000x8_1_0_0_1_n_n none (V (Proc.devRef .tc main_v49)) (V (Proc.devRef .tc main_arg4)) := by
  after_results_simp

set_option maxHeartbeats 8000000 in
theorem s2_v90 (V : Valuation τ sig (Elt F))
    (x0 : (⟨S100000x512, .f32⟩ : BufTy).Contents (Elt F)) (x1 : (⟨S2x1600000, .i32⟩ : BufTy).Contents (Elt F))
    (x2 : (⟨S512x32, .f32⟩ : BufTy).Contents (Elt F)) (x3 : (⟨S32, .f32⟩ : BufTy).Contents (Elt F))
    (x6 : (⟨S32x8, .f32⟩ : BufTy).Contents (Elt F)) (x7 : (⟨S8, .f32⟩ : BufTy).Contents (Elt F))
    (x8 : (⟨S32x8, .f32⟩ : BufTy).Contents (Elt F)) (x9 : (⟨S8, .f32⟩ : BufTy).Contents (Elt F))
    (x10 : (⟨S16x1, .f32⟩ : BufTy).Contents (Elt F)) (x11 : (⟨S1, .f32⟩ : BufTy).Contents (Elt F))
    (h49 : V (Proc.devRef .tc main_v49) = val_main_v49 (F := F) x0 x1 x2 x3)
    (h1 : V (Proc.devRef .tc main_v1) = val_main_v1 (F := F) x1) (h3 : V (Proc.devRef .tc main_v3) = val_main_v3 (F := F) x1)
    (h6 : V (Proc.devRef .tc main_arg6) = x6) (h7 : V (Proc.devRef .tc main_arg7) = x7)
    (h8 : V (Proc.devRef .tc main_arg8) = x8) (h9 : V (Proc.devRef .tc main_arg9) = x9)
    (h10 : V (Proc.devRef .tc main_arg10) = x10) (h11 : V (Proc.devRef .tc main_arg11) = x11) :
    after ops2 V (Proc.devRef .tc main_v90) = val_main_v90 (F := F) x0 x1 x2 x3 x6 x7 x8 x9 x10 x11 := by
  after_results_simp
  host_reads
  rw [h49, h1, h3, h6, h7, h8, h9, h10, h11]
  rfl

theorem s2_v1 (V : Valuation τ sig (Elt F)) : after ops2 V (Proc.devRef .tc main_v1) = V (Proc.devRef .tc main_v1) := by
  after_results_simp
theorem s2_v3 (V : Valuation τ sig (Elt F)) : after ops2 V (Proc.devRef .tc main_v3) = V (Proc.devRef .tc main_v3) := by
  after_results_simp
theorem s2_arg5 (V : Valuation τ sig (Elt F)) : after ops2 V (Proc.devRef .tc main_arg5) = V (Proc.devRef .tc main_arg5) := by
  after_results_simp

/-! ## The third stage: the result -/

theorem s3_v135 (V : Valuation τ sig (Elt F)) :
    after ops3 V (Proc.devRef .tc main_v135)
      = Cert.Tail.conv8 (V (Proc.devRef .tc main_v91)) (V (Proc.devRef .tc main_v1)) (V (Proc.devRef .tc main_v3))
          (V (Proc.devRef .tc main_v90)) (V (Proc.devRef .tc main_arg5)) := by
  after_results_simp
  rfl

/-! ## The whole line -/

/-- The result buffer after the 180 operations: the result term of the arguments. -/
theorem fold_v135 (V : Valuation τ sig (Elt F)) :
    after ops V (Proc.devRef .tc main_v135)
      = val_main_v135 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  show after (ops1 ++ (ops2 ++ ops3)) V (Proc.devRef .tc main_v135) = _
  rw [StableHlo.after_append, StableHlo.after_append, s3_v135, Cert.RefTail.v135_eq, s2_v91, s2_v1, s2_v3, s2_arg5, s1_v49, s1_v1, s1_v3,
    s1_arg4, s1_arg5,
    s2_v90 (after ops1 V) (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) (V (Proc.devRef .tc main_arg10)) (V (Proc.devRef .tc main_arg11))
      (s1_v49 V) (s1_v1 V) (s1_v3 V) (s1_arg6 V) (s1_arg7 V) (s1_arg8 V) (s1_arg9 V) (s1_arg10 V) (s1_arg11 V)]
  rfl

theorem keep_arg0 (V : Valuation τ sig (Elt F)) : after ops V (Proc.devRef .tc main_arg0) = V (Proc.devRef .tc main_arg0) := by
  show after (ops1 ++ (ops2 ++ ops3)) V (Proc.devRef .tc main_arg0) = _
  rw [StableHlo.after_append, StableHlo.after_append]
  after_results_simp
theorem keep_arg1 (V : Valuation τ sig (Elt F)) : after ops V (Proc.devRef .tc main_arg1) = V (Proc.devRef .tc main_arg1) := by
  show after (ops1 ++ (ops2 ++ ops3)) V (Proc.devRef .tc main_arg1) = _
  rw [StableHlo.after_append, StableHlo.after_append]
  after_results_simp
theorem keep_arg2 (V : Valuation τ sig (Elt F)) : after ops V (Proc.devRef .tc main_arg2) = V (Proc.devRef .tc main_arg2) := by
  show after (ops1 ++ (ops2 ++ ops3)) V (Proc.devRef .tc main_arg2) = _
  rw [StableHlo.after_append, StableHlo.after_append]
  after_results_simp
theorem keep_arg3 (V : Valuation τ sig (Elt F)) : after ops V (Proc.devRef .tc main_arg3) = V (Proc.devRef .tc main_arg3) := by
  show after (ops1 ++ (ops2 ++ ops3)) V (Proc.devRef .tc main_arg3) = _
  rw [StableHlo.after_append, StableHlo.after_append]
  after_results_simp
theorem keep_arg4 (V : Valuation τ sig (Elt F)) : after ops V (Proc.devRef .tc main_arg4) = V (Proc.devRef .tc main_arg4) := by
  show after (ops1 ++ (ops2 ++ ops3)) V (Proc.devRef .tc main_arg4) = _
  rw [StableHlo.after_append, StableHlo.after_append]
  after_results_simp
theorem keep_arg5 (V : Valuation τ sig (Elt F)) : after ops V (Proc.devRef .tc main_arg5) = V (Proc.devRef .tc main_arg5) := by
  show after (ops1 ++ (ops2 ++ ops3)) V (Proc.devRef .tc main_arg5) = _
  rw [StableHlo.after_append, StableHlo.after_append]
  after_results_simp
theorem keep_arg6 (V : Valuation τ sig (Elt F)) : after ops V (Proc.devRef .tc main_arg6) = V (Proc.devRef .tc main_arg6) := by
  show after (ops1 ++ (ops2 ++ ops3)) V (Proc.devRef .tc main_arg6) = _
  rw [StableHlo.after_append, StableHlo.after_append]
  after_results_simp
theorem keep_arg7 (V : Valuation τ sig (Elt F)) : after ops V (Proc.devRef .tc main_arg7) = V (Proc.devRef .tc main_arg7) := by
  show after (ops1 ++ (ops2 ++ ops3)) V (Proc.devRef .tc main_arg7) = _
  rw [StableHlo.after_append, StableHlo.after_append]
  after_results_simp
theorem keep_arg8 (V : Valuation τ sig (Elt F)) : after ops V (Proc.devRef .tc main_arg8) = V (Proc.devRef .tc main_arg8) := by
  show after (ops1 ++ (ops2 ++ ops3)) V (Proc.devRef .tc main_arg8) = _
  rw [StableHlo.after_append, StableHlo.after_append]
  after_results_simp
theorem keep_arg9 (V : Valuation τ sig (Elt F)) : after ops V (Proc.devRef .tc main_arg9) = V (Proc.devRef .tc main_arg9) := by
  show after (ops1 ++ (ops2 ++ ops3)) V (Proc.devRef .tc main_arg9) = _
  rw [StableHlo.after_append, StableHlo.after_append]
  after_results_simp
theorem keep_arg10 (V : Valuation τ sig (Elt F)) : after ops V (Proc.devRef .tc main_arg10) = V (Proc.devRef .tc main_arg10) := by
  show after (ops1 ++ (ops2 ++ ops3)) V (Proc.devRef .tc main_arg10) = _
  rw [StableHlo.after_append, StableHlo.after_append]
  after_results_simp
theorem keep_arg11 (V : Valuation τ sig (Elt F)) : after ops V (Proc.devRef .tc main_arg11) = V (Proc.devRef .tc main_arg11) := by
  show after (ops1 ++ (ops2 ++ ops3)) V (Proc.devRef .tc main_arg11) = _
  rw [StableHlo.after_append, StableHlo.after_append]
  after_results_simp

/-- On every device, from any memory with zero counters: every weakly fair execution of the reference terminates,
    nothing faulting, with the result at its term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v135) = val_main_v135 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v135).trans (fold_v135 (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c)),
      (h c main_arg11).trans (keep_arg11 (launchContents m c))⟩)
    (run_seq scopedRefs_eq scopedSems_eq defs main (fun _ => ops) main_eq (fun _ => ops_sub) m ρ)

end Cert.RefRunH

end
-- ==== Proof.KRun.lean ====
/-
  The kernel program's run with its result named.

  The program is eleven segments: stretches of host operations and three pallas regions.  Every weakly fair execution
  terminates without a fault, and in the final state every buffer that is never scoped holds the contents the last
  segment leaves: the fold of the host stretches and of the regions' write-backs over the launch memory.  The
  statement below reads that fold at the program's result buffer and at the twelve argument buffers; the arguments
  are never written, so they end as launched.
-/
import proofs.«161898_j54245436949038_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting; the result buffer ends at the
    last boundary's contents and the argument arrays end as launched. -/
theorem run_main : θ_run defs (onTc (τ := τ) (main (F := F))) ⟨m, fun _ => 0, ρ⟩ (fun r => ∀ c : Dev nD,
      r.2.mem ((c.tc : Thread nD τ).loc main_v112) = W11 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v112 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.KRun

end
-- ==== Proof.Spec.lean ====
/-
  The mathematics both programs compute between the first graph convolution and the second, entry by entry over
  the extended reals.

  Every node n has a hidden row h(n, ·) of 32 numbers.  Two affine maps send it to 8 numbers each:
  f(n, k) = Σ_j h(n, j) · W(j, k) + b(k).  An edge e names a source node and a target node by two 32-bit words
  (a negative word w stands for w + 100000, and the result is clamped into [0, 99999]).  The edge's 16 features are
  the source's 8 numbers under the first map followed by the target's 8 numbers under the second; its logit is their
  inner product with a 16-vector plus a bias; its weight is the gate of the logit:
  gate z = min 1 (max 0 (σ(max z 0) · 1.01 + 0)) · max z 0, σ the logistic function.
-/
import Idealize.ShloMosaic.PureOps.Ideal
import Idealize.ShloMosaic.Lib.ValueIdx

noncomputable section

namespace Cert.Spec

open Idealize.ShloMosaic Idealize.ShloMosaic.ValueIdx

/-- The f32 words 0.0, 1.0 and 1.01 as the programs spell them, read at the ideal instance. -/
abbrev zeroW : EReal := Ideal.ofBits .f32 0x00000000#32
abbrev oneW : EReal := Ideal.ofBits .f32 0x3F800000#32
abbrev c101W : EReal := Ideal.ofBits .f32 0x3F8147AE#32

/-- From an edge's logit to its weight: the rectified logit times the clipped, stretched logistic of it. -/
def gate (z : EReal) : EReal :=
  min oneW (max zeroW (Ideal.logistic (max z zeroW) * c101W + zeroW)) * max z zeroW

/-- A negative node number counts from the end. -/
def wrapW (b : BitVec 32) : BitVec 32 := Scalar.select (IntOp.cmpi .slt b 0#32) (IntOp.addi b 100000#32) b

/-- The node a word names: wrapped, read signed, clamped into the table. -/
def node (b : BitVec 32) : Fin 100000 := ⟨min (wrapW b).toInt.toNat (100000 - 1), by omega⟩

/-- One affine map of a node's hidden row: entry k of h(n, ·) · W + b. -/
def f1 (h : (⟨2, ![100000, 32]⟩ : Shape).Idx → EReal) (W : (⟨2, ![32, 8]⟩ : Shape).Idx → EReal)
    (b : (⟨1, ![8]⟩ : Shape).Idx → EReal) (n : Fin 100000) (k : Fin 8) : EReal :=
  (∑ j : Fin 32, h (ix2 n j) * W (ix2 j k)) + b (ix1 k)

/-- Sixteen numbers: eight, then eight more. -/
def cat16 (a b : Fin 8 → EReal) (k : Fin 16) : EReal :=
  if hk : k.val < 8 then a ⟨k.val, hk⟩ else b ⟨k.val - 8, by omega⟩

/-- The weight of edge e. -/
def mw (h : (⟨2, ![100000, 32]⟩ : Shape).Idx → EReal)
    (Wnb : (⟨2, ![32, 8]⟩ : Shape).Idx → EReal) (bnb : (⟨1, ![8]⟩ : Shape).Idx → EReal)
    (Wself : (⟨2, ![32, 8]⟩ : Shape).Idx → EReal) (bself : (⟨1, ![8]⟩ : Shape).Idx → EReal)
    (Watt : (⟨2, ![16, 1]⟩ : Shape).Idx → EReal) (batt : (⟨1, ![1]⟩ : Shape).Idx → EReal)
    (row col : (⟨1, ![1600000]⟩ : Shape).Idx → BitVec 32) (e : Fin 1600000) : EReal :=
  gate ((∑ k : Fin 16, cat16 (f1 h Wnb bnb (node (row (ix1 e)))) (f1 h Wself bself (node (col (ix1 e)))) k
            * Watt (ix2 k (0 : Fin 1))) + batt (ix1 (0 : Fin 1)))

end Cert.Spec

end
-- ==== Proof.LibScatterColumns.lean ====
/-
  A column gather and a column scatter read at an index.

  Both operations take a matrix with `R` rows and `N` columns and a list of `C` column numbers (an integer array
  of shape `[C, 1]`, read as signed words).

  * The gather builds the `R × C` matrix whose column `k` is the operand's column number `k` of the list,
    the number clamped into `[0, N − 1]`.
  * The scatter (with the body that returns the update) starts from the operand and, for every entry `(r, k)`
    of an `R × C` matrix of updates in row-major order, replaces the operand's entry `(r, c)`, `c` the list's
    number `k`, when `0 ≤ c < N`, and drops the update otherwise.

  Read at an entry `(r, c)` the scatter's result is therefore the update `(r, k)` when exactly one `k` of the list
  names column `c`, and the operand's entry when none does.  The first part of the file proves this for any left fold of
  such replacements; the second identifies the two operations' index arithmetic for these dimension numbers.
-/
import Idealize.ShloMosaic.PureOps.Ideal
import Idealize.ShloMosaic.Lib.ValueIdx

noncomputable section

namespace ColumnIndexing

open Idealize.ShloMosaic Idealize.ShloMosaic.ValueIdx

/-! ## A left fold of replacements, read at one index

`step r n` replaces the entry at the index `g n` names (if any) by `v n` and leaves every other entry alone. -/

section Fold
variable {ι κ α : Type} {step : (ι → α) → κ → ι → α} {g : κ → Option ι} {v : κ → α}

/-- Once the entry at `i'` holds `a`, and every later replacement that lands on `i'` writes `a` again, it holds `a`
    at the end. -/
theorem foldl_keep (hhit : ∀ r n i', g n = some i' → step r n i' = v n)
    (hmiss : ∀ r n i', g n ≠ some i' → step r n i' = r i') (i' : ι) (a : α) :
    ∀ (l : List κ) (x : ι → α), (∀ n ∈ l, g n = some i' → v n = a) → x i' = a → l.foldl step x i' = a
  | [], _, _, hx => hx
  | n :: l, x, h, hx => by
      rw [List.foldl_cons]
      refine foldl_keep hhit hmiss i' a l (step x n) (fun n' hn' => h n' (List.mem_cons.mpr (Or.inr hn'))) ?_
      by_cases hn : g n = some i'
      · rw [hhit x n i' hn]; exact h n (List.mem_cons.mpr (Or.inl rfl)) hn
      · rw [hmiss x n i' hn]; exact hx

/-- If some replacement lands on `i'` and all that do write `a`, the entry at `i'` ends as `a`. -/
theorem foldl_hit (hhit : ∀ r n i', g n = some i' → step r n i' = v n)
    (hmiss : ∀ r n i', g n ≠ some i' → step r n i' = r i') (i' : ι) (a : α) :
    ∀ (l : List κ) (x : ι → α), (∀ n ∈ l, g n = some i' → v n = a) → (∃ n ∈ l, g n = some i') →
      l.foldl step x i' = a
  | [], _, _, ⟨_, hn, _⟩ => nomatch hn
  | n :: l, x, h, ⟨n0, hn0, hg0⟩ => by
      rw [List.foldl_cons]
      have h' : ∀ n' ∈ l, g n' = some i' → v n' = a := fun n' hn' => h n' (List.mem_cons.mpr (Or.inr hn'))
      by_cases hn : g n = some i'
      · exact foldl_keep hhit hmiss i' a l _ h'
          (by rw [hhit x n i' hn]; exact h n (List.mem_cons.mpr (Or.inl rfl)) hn)
      · rcases List.mem_cons.mp hn0 with rfl | hmem
        · exact absurd hg0 hn
        · exact foldl_hit hhit hmiss i' a l _ h' ⟨n0, hmem, hg0⟩

/-- If no replacement lands on `i'`, the entry at `i'` is the initial one. -/
theorem foldl_miss (hmiss : ∀ r n i', g n ≠ some i' → step r n i' = r i') (i' : ι) :
    ∀ (l : List κ) (x : ι → α), (∀ n ∈ l, g n ≠ some i') → l.foldl step x i' = x i'
  | [], _, _ => rfl
  | n :: l, x, h => by
      rw [List.foldl_cons, foldl_miss hmiss i' l (step x n) (fun n' hn' => h n' (List.mem_cons.mpr (Or.inr hn')))]
      exact hmiss x n i' (h n (List.mem_cons.mpr (Or.inl rfl)))

end Fold

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

/-- Axis 0 is not in the one-element list of axis 1. -/
theorem zero_not_mem_one : (0 : Fin 2) ∉ ([1] : List (Fin 2)) := by decide
/-- Of a rank-2 shape's axes, the ones other than axis 1 contain axis 0 … -/
theorem zero_mem_kept_one : (0 : Fin 2) ∈ (List.finRange 2).filter (fun a => decide (a ∉ ([1] : List (Fin 2)))) := by decide
/-- … and do not contain axis 1. -/
theorem one_not_mem_kept_one : (1 : Fin 2) ∉ (List.finRange 2).filter (fun a => decide (a ∉ ([1] : List (Fin 2)))) := by decide

/-- Entry `k` of a `[C, 1]` list of column numbers. -/
abbrev colIdx {C : Nat} (k : Fin C) : (⟨2, ![C, 1]⟩ : Shape).Idx := ix2 k ⟨0, Nat.one_pos⟩

/-! ## The column scatter -/

section Scatter
variable {α : Type} {R N C w : Nat}
  (wf : ScatterDims.WF ⟨2, ![R, N]⟩ ⟨2, ![C, 1]⟩ ⟨2, ![R, C]⟩ [0] [1] [1] 1)

/-- The dimension numbers of `operand.at[:, cols].set(updates)`: update axis 0 is the window over the operand's rows,
    the operand's column axis is the scattered one, each index vector one column number. -/
abbrev colScatterDims (R N C : Nat)
    (wf : ScatterDims.WF ⟨2, ![R, N]⟩ ⟨2, ![C, 1]⟩ ⟨2, ![R, C]⟩ [0] [1] [1] 1) :
    ScatterDims ⟨2, ![R, N]⟩ ⟨2, ![C, 1]⟩ ⟨2, ![R, C]⟩ where
  updateWindowDims := [0]
  insertedWindowDims := [1]
  scatterDimsToOperandDims := [1]
  indexVectorDim := 1
  wf := wf

theorem scatter_start_row (idx : IVec ⟨2, ![C, 1]⟩ w) (r : Fin R) (k : Fin C) :
    (colScatterDims R N C wf).start (ix2 r k) idx 0 = 0 := by
  unfold ScatterDims.start
  rw [dif_neg zero_not_mem_one]

theorem scatter_start_col (idx : IVec ⟨2, ![C, 1]⟩ w) (r : Fin R) (k : Fin C) :
    (colScatterDims R N C wf).start (ix2 r k) idx 1 = (idx (colIdx k)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem scatter_window_row (r : Fin R) (k : Fin C) :
    (colScatterDims R N C wf).window (ix2 r k) 0 = r.val := by
  unfold ScatterDims.window
  rw [dif_pos (show 0 ∈ (colScatterDims R N C wf).sKept from zero_mem_kept_one)]
  rfl

theorem scatter_window_col (r : Fin R) (k : Fin C) :
    (colScatterDims R N C wf).window (ix2 r k) 1 = 0 := by
  unfold ScatterDims.window
  rw [dif_neg (show 1 ∉ (colScatterDims R N C wf).sKept from one_not_mem_kept_one)]

/-- WHERE AN UPDATE LANDS: update `(r, k)` lands on `(r', c)` exactly when `r' = r` and the list's number `k`,
    read signed, is `c`. -/
theorem scatter_lands_iff (idx : IVec ⟨2, ![C, 1]⟩ w) (r r' : Fin R) (k : Fin C) (c : Fin N) :
    (colScatterDims R N C wf).resultIdx? (ix2 r k) idx = some (ix2 r' c)
      ↔ r' = r ∧ (idx (colIdx k)).toInt = (c.val : Int) := by
  have e0 : (colScatterDims R N C wf).start (ix2 r k) idx 0 + ((colScatterDims R N C wf).window (ix2 r k) 0 : Nat)
      = (r.val : Int) := by
    rw [scatter_start_row, scatter_window_row]; omega
  have e1 : (colScatterDims R N C wf).start (ix2 r k) idx 1 + ((colScatterDims R N C wf).window (ix2 r k) 1 : Nat)
      = (idx (colIdx k)).toInt := by
    rw [scatter_start_col, scatter_window_col]; omega
  have hr : r.val < R := r.isLt
  have hc : c.val < N := c.isLt
  unfold ScatterDims.resultIdx?
  split
  · rename_i h
    have h1 := h 1
    rw [e1] at h1
    constructor
    · intro hEq
      have hEq' := Option.some.inj hEq
      have h0v : ((colScatterDims R N C wf).start (ix2 r k) idx 0
          + ((colScatterDims R N C wf).window (ix2 r k) 0 : Nat)).toNat = r'.val := congrArg (fun i => (i 0).val) hEq'
      have h1v : ((colScatterDims R N C wf).start (ix2 r k) idx 1
          + ((colScatterDims R N C wf).window (ix2 r k) 1 : Nat)).toNat = c.val := congrArg (fun i => (i 1).val) hEq'
      rw [e0] at h0v
      rw [e1] at h1v
      exact ⟨Fin.ext (by omega), by omega⟩
    · rintro ⟨rfl, hz⟩
      refine congrArg some (funext fun a => Fin.ext ?_)
      rcases axis_two a with rfl | rfl
      · show ((colScatterDims R N C wf).start (ix2 r' k) idx 0
          + ((colScatterDims R N C wf).window (ix2 r' k) 0 : Nat)).toNat = r'.val
        rw [e0]; omega
      · show ((colScatterDims R N C wf).start (ix2 r' k) idx 1
          + ((colScatterDims R N C wf).window (ix2 r' k) 1 : Nat)).toNat = c.val
        rw [e1]; omega
  · rename_i h
    constructor
    · intro hEq; exact nomatch hEq
    · rintro ⟨rfl, hz⟩
      refine absurd (fun a => ?_) h
      rcases axis_two a with rfl | rfl
      · rw [e0]
        exact ⟨by omega, by show (r'.val : Int) < ((R : Nat) : Int); omega⟩
      · rw [e1]
        exact ⟨by omega, by show (idx (colIdx k)).toInt < ((N : Nat) : Int); omega⟩

/-- THE SCATTER READ WHERE A COLUMN IS NAMED: if the list's number `k` is `c` and no other entry of the list is, the
    result's entry `(r, c)` is the update's entry `(r, k)`. -/
theorem scatter_set_cols_hit (x : (⟨2, ![R, N]⟩ : Shape).Idx → α) (idx : IVec ⟨2, ![C, 1]⟩ w)
    (upd : (⟨2, ![R, C]⟩ : Shape).Idx → α) (r : Fin R) (c : Fin N) (k : Fin C)
    (hk : (idx (colIdx k)).toInt = (c.val : Int))
    (huniq : ∀ k' : Fin C, (idx (colIdx k')).toInt = (c.val : Int) → k' = k) :
    Host.scatter (colScatterDims R N C wf) (fun _ b => b) x idx upd (ix2 r c) = upd (ix2 r k) := by
  unfold Host.scatter
  refine foldl_hit (g := fun n => (colScatterDims R N C wf).resultIdx? ((⟨2, ![R, C]⟩ : Shape).rowMajor.symm n) idx)
    (v := fun n => upd ((⟨2, ![R, C]⟩ : Shape).rowMajor.symm n)) ?_ ?_ (ix2 r c) (upd (ix2 r k)) _ x ?_ ?_
  · intro f n i' hn
    dsimp only at hn ⊢
    rw [hn]
    exact if_pos rfl
  · intro f n i' hn
    dsimp only at hn ⊢
    generalize hres : (colScatterDims R N C wf).resultIdx? ((⟨2, ![R, C]⟩ : Shape).rowMajor.symm n) idx = o at hn ⊢
    cases o with
    | none => rfl
    | some i => exact if_neg fun h => hn (congrArg some h.symm)
  · intro n _ hn
    generalize (⟨2, ![R, C]⟩ : Shape).rowMajor.symm n = j at hn ⊢
    obtain ⟨r', k', rfl⟩ : ∃ (r' : Fin R) (k' : Fin C), j = ix2 r' k' := ⟨j 0, j 1, eq_ix2 j⟩
    obtain ⟨rfl, hz⟩ := (scatter_lands_iff wf idx r' r k' c).mp hn
    rw [huniq k' hz]
  · refine ⟨(⟨2, ![R, C]⟩ : Shape).rowMajor (ix2 r k), List.mem_finRange _, ?_⟩
    show (colScatterDims R N C wf).resultIdx? ((⟨2, ![R, C]⟩ : Shape).rowMajor.symm ((⟨2, ![R, C]⟩ : Shape).rowMajor (ix2 r k))) idx = _
    rw [Equiv.symm_apply_apply]
    exact (scatter_lands_iff wf idx r r k c).mpr ⟨rfl, hk⟩

/-- THE SCATTER READ WHERE NO COLUMN IS NAMED: if no entry of the list is `c`, the result's entry `(r, c)` is the
    operand's. -/
theorem scatter_set_cols_miss (x : (⟨2, ![R, N]⟩ : Shape).Idx → α) (idx : IVec ⟨2, ![C, 1]⟩ w)
    (upd : (⟨2, ![R, C]⟩ : Shape).Idx → α) (r : Fin R) (c : Fin N)
    (hnone : ∀ k' : Fin C, (idx (colIdx k')).toInt ≠ (c.val : Int)) :
    Host.scatter (colScatterDims R N C wf) (fun _ b => b) x idx upd (ix2 r c) = x (ix2 r c) := by
  unfold Host.scatter
  refine foldl_miss (g := fun n => (colScatterDims R N C wf).resultIdx? ((⟨2, ![R, C]⟩ : Shape).rowMajor.symm n) idx)
    ?_ (ix2 r c) _ x ?_
  · intro f n i' hn
    dsimp only at hn ⊢
    generalize hres : (colScatterDims R N C wf).resultIdx? ((⟨2, ![R, C]⟩ : Shape).rowMajor.symm n) idx = o at hn ⊢
    cases o with
    | none => rfl
    | some i => exact if_neg fun h => hn (congrArg some h.symm)
  · intro n _ hn
    generalize (⟨2, ![R, C]⟩ : Shape).rowMajor.symm n = j at hn
    obtain ⟨r', k', rfl⟩ : ∃ (r' : Fin R) (k' : Fin C), j = ix2 r' k' := ⟨j 0, j 1, eq_ix2 j⟩
    exact hnone k' ((scatter_lands_iff wf idx r' r k' c).mp hn).2

end Scatter

/-! ## The column gather -/

section Gather
variable {α : Type} {R N C w : Nat}
  (wf : GatherDims.WF ⟨2, ![R, N]⟩ ⟨2, ![C, 1]⟩ ⟨2, ![R, C]⟩ [0] [1] [] [1] [] 1 ![R, 1])

/-- The dimension numbers of `operand[:, cols]`: whole columns (slice sizes `[R, 1]`), the column axis collapsed,
    each index vector one column number. -/
abbrev colGatherDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- THE GATHER READ AT `(r, k)`: the operand's entry in row `r` and the column the list's number `k` names, read
    signed and clamped into `[0, N − 1]`. -/
theorem gather_cols_apply (hN : 0 < N) (x : (⟨2, ![R, N]⟩ : Shape).Idx → α) (idx : IVec ⟨2, ![C, 1]⟩ w)
    (r : Fin R) (k : Fin C) :
    Host.gather (colGatherDims R N C wf) x idx (ix2 r k)
      = x (ix2 r ⟨min (idx (colIdx k)).toInt.toNat (N - 1), by omega⟩) := by
  unfold Host.gather
  refine congrArg x (funext fun a => Fin.ext ?_)
  rcases axis_two a with rfl | rfl
  · show (colGatherDims R N C wf).start (ix2 r k) idx 0 + (colGatherDims R N C wf).batchCoord (ix2 r k) 0
      + (colGatherDims R N C wf).offCoord (ix2 r k) 0 = r.val
    rw [GatherDims.batchCoord_eq_zero _ _ _ List.not_mem_nil]
    unfold GatherDims.start GatherDims.offCoord
    rw [dif_neg (show 0 ∉ (colGatherDims R N C wf).startIndexMap from zero_not_mem_one),
      dif_pos (show 0 ∈ (colGatherDims R N C wf).sKept from zero_mem_kept_one)]
    show 0 + 0 + r.val = r.val
    omega
  · show (colGatherDims R N C wf).start (ix2 r k) idx 1 + (colGatherDims R N C wf).batchCoord (ix2 r k) 1
      + (colGatherDims R N C wf).offCoord (ix2 r k) 1 = min (idx (colIdx k)).toInt.toNat (N - 1)
    rw [GatherDims.batchCoord_eq_zero _ _ _ List.not_mem_nil]
    unfold GatherDims.start GatherDims.offCoord
    rw [dif_pos (show 1 ∈ (colGatherDims R N C wf).startIndexMap from List.mem_singleton.mpr rfl),
      dif_neg (show 1 ∉ (colGatherDims R N C wf).sKept from one_not_mem_kept_one)]
    have hsi : (colGatherDims R N C wf).siIdx (ix2 r k) ⟨List.idxOf (1 : Fin 2) (colGatherDims R N C wf).startIndexMap,
        List.idxOf_lt_length_iff.2 (List.mem_singleton.mpr rfl)⟩ = colIdx k := by
      funext b; refine Fin.ext ?_
      match b with
      | ⟨0, _⟩ => rfl
      | ⟨1, _⟩ => rfl
    rw [hsi]
    show min (idx (colIdx k)).toInt.toNat (N - 1) + 0 + 0 = _
    omega

end Gather

end ColumnIndexing

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.KTail.lean ====
/-
  The kernel program's host stretches, read.

  Between the three pallas regions the kernel program runs the same array operations as the reference: after the
  first region the first graph convolution's aggregation (of the region's product x · W0, with unit edge weights), after
  the third region the second aggregation (of the second region's product h · W1, with the third region's edge
  weights), and between the second and the third region the per-edge rows: entry (k, e) of the array the third region
  reads is entry (n, k) of the second region's output, n the node that edge e's word names.
-/
import proofs.«161898_j54245436949038_1_alg».proof.Proof.Gen.KernelIdeal.Frame
import proofs.«161898_j54245436949038_1_alg».proof.Proof.Tail
import Idealize.ShloMosaic.Lib.StableHlo.Run
import proofs.«161898_j54245436949038_1_alg».proof.Proof.Spec
import proofs.«161898_j54245436949038_1_alg».proof.Proof.LibScatterColumns
import proofs.«161898_j54245436949038_1_alg».proof.Proof.LibJoinedRows

set_option maxRecDepth 16384

noncomputable section

namespace Cert.KernelIdeal.KTail

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The two aggregations -/

/-- The hidden features the second region is entered with: the aggregation of the first region's output. -/
theorem h_eq (c : Dev nD) :
    W5 m ρ c (Proc.devRef .tc main_v49)
      = Cert.Tail.conv32 (W2 m ρ c (Proc.devRef .tc main_v4)) (W2 m ρ c (Proc.devRef .tc main_v1))
          (W2 m ρ c (Proc.devRef .tc main_v3)) Cert.Tail.unitWeights (W2 m ρ c (Proc.devRef .tc main_arg3)) := by
  show StableHlo.after hostOps1_2 (StableHlo.after hostOps1_1 (StableHlo.after hostOps1 (W2 m ρ c))) (Proc.devRef .tc main_v49) = _
  generalize W2 m ρ c = V
  after_results_simp
  rfl

/-- The program's result: the aggregation of the second region's third output with the third region's weights. -/
theorem out_eq (c : Dev nD) :
    W11 m ρ c (Proc.devRef .tc main_v112)
      = Cert.Tail.conv8 (W8 m ρ c (Proc.devRef .tc main_v50_2)) (W8 m ρ c (Proc.devRef .tc main_v1))
          (W8 m ρ c (Proc.devRef .tc main_v3))
          (shapeCast _ (W8 m ρ c (Proc.devRef .tc main_v67)) Cert.ReferenceIdeal.Gen.shapeCasts_S1x1600000_S1600000)
          (W8 m ρ c (Proc.devRef .tc main_arg5)) := by
  show StableHlo.after hostOps3_2 (StableHlo.after hostOps3_1 (StableHlo.after hostOps3 (W8 m ρ c))) (Proc.devRef .tc main_v112) = _
  generalize W8 m ρ c = V
  after_results_simp
  rfl

end Cert.KernelIdeal.KTail

end
-- ==== Proof.KMid.lean ====
/-
  The per-edge rows the third region reads.

  Between the second and the third region the kernel program transposes each of the second region's first two outputs
  ([100000, 8] to [8, 100000]) and gathers its columns by an edge-endpoint list: entry (k, e) of the gathered array is
  entry (n, k) of the untransposed output, n the node that edge e's word names (a negative word counts from the end; the
  result is clamped into the table).
-/
import proofs.«161898_j54245436949038_1_alg».proof.Proof.Gen.KernelIdeal.Frame
import proofs.«161898_j54245436949038_1_alg».proof.Proof.Spec
import proofs.«161898_j54245436949038_1_alg».proof.Proof.LibScatterColumns
import proofs.«161898_j54245436949038_1_alg».proof.Proof.LibJoinedRows
import Idealize.ShloMosaic.Lib.StableHlo.Run
import Idealize.ShloMosaic.Lib.ValueIdx

set_option maxRecDepth 16384

noncomputable section

namespace Cert.KernelIdeal.KMid

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (ρ : Dev nD → PrngReg)

/-- The transposed table gathered by the wrapped endpoint list, as the host operations spell it. -/
def edgeRows {α : Type} (x : S100000x8.Idx → α) (v : IVec S1600000 32) : S8x1600000.Idx → α :=
  Host.gather gather_S8x100000_S1600000x1_S8x1600000_0_1_n_n_1_1_81
    (transpose S8x100000 [1, 0] x transposes_S100000x8_S8x100000_1_0)
    (broadcastInDim S1600000x1 ![0] bcast_S1600000_S1600000x1_0
      (select (cmpi .slt v (broadcastInDim S1600000 ![] bcast_S_S1600000 (constantI S_ 32 0#32)))
        (addi v (broadcastInDim S1600000 ![] bcast_S_S1600000 (constantI S_ 32 100000#32))) v))

/-- Entry (k, e) is the table's entry (n, k), n the node edge e's word names. -/
theorem edgeRows_apply {α : Type} (x : S100000x8.Idx → α) (v : IVec S1600000 32) (k : Fin 8) (e : Fin 1600000) :
    edgeRows x v (ix2 k e) = x (ix2 (Cert.Spec.node (v (ix1 e))) k) := by
  unfold edgeRows
  have hd : gather_S8x100000_S1600000x1_S8x1600000_0_1_n_n_1_1_81
      = ColumnIndexing.colGatherDims 8 100000 1600000 gather_S8x100000_S1600000x1_S8x1600000_0_1_n_n_1_1_81.wf := rfl
  rw [hd]
  refine (ColumnIndexing.gather_cols_apply (R := 8) (N := 100000) (C := 1600000) _ (by decide) _ _ k e).trans ?_
  refine (Cert.LibJoinedRows.transpose2_apply (a := 100000) (b := 8) transposes_S100000x8_S8x100000_1_0 x k _).trans ?_
  refine congrArg x ?_
  refine congrArg (fun n => ix2 n k) ?_
  apply Fin.ext
  show min (_ : BitVec 32).toInt.toNat (100000 - 1) = min (Cert.Spec.wrapW (v (ix1 e))).toInt.toNat (100000 - 1)
  rw [Cert.LibJoinedRows.bcast_vec_col_apply]
  rfl

/-- What the third region's first window holds when it is entered. -/
theorem v59_eq (c : Dev nD) :
    W7 m ρ c (Proc.devRef .tc main_v59)
      = edgeRows (W6 m ρ c (Proc.devRef .tc main_v50_0)) (W6 m ρ c (Proc.devRef .tc main_v1)) := by
  show StableHlo.after hostOps2 (W6 m ρ c) (Proc.devRef .tc main_v59) = _
  generalize W6 m ρ c = V
  after_results_simp
  rfl

/-- What the third region's second window holds when it is entered. -/
theorem v66_eq (c : Dev nD) :
    W7 m ρ c (Proc.devRef .tc main_v66)
      = edgeRows (W6 m ρ c (Proc.devRef .tc main_v50_1)) (W6 m ρ c (Proc.devRef .tc main_v3)) := by
  show StableHlo.after hostOps2 (W6 m ρ c) (Proc.devRef .tc main_v66) = _
  generalize W6 m ρ c = V
  after_results_simp
  rfl

end Cert.KernelIdeal.KMid

end
-- ==== Proof.KWalk.lean ====
/-
  Buffers no segment writes keep their contents.

  The kernel program's buffer contents at a segment boundary are a fold over the segments before it.  A buffer that no
  host operation of a stretch writes reads the same before and after the stretch, and a buffer that is none of a
  region's arrays reads the same before and after the region.  So each argument array, read where a later segment
  reads it, still holds its launch contents, and the two edge-endpoint lists (computed once, by the first stretch, from
  the edge array's two rows) are the same wherever they are read.
-/
import proofs.«161898_j54245436949038_1_alg».proof.Proof.Gen.KernelIdeal.Frame
import Idealize.ShloMosaic.Lib.StableHlo.Run

set_option maxRecDepth 16384

noncomputable section

namespace Cert.KernelIdeal.KWalk

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Row r of the edge array as a list of 1600000 node numbers. -/
def edgeRow0 (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000
def edgeRow1 (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-! ## The first stretch computes the two endpoint lists -/

theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results_simp
  rfl
theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results_simp
  rfl

/-! ## What each later segment reads of them and of the arguments -/

/-- The first region reads x as launched. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := (by
      show StableHlo.after hostOps0 (W0 m ρ c) (Proc.devRef .tc main_arg0) = W0 m ρ c (Proc.devRef .tc main_arg0)
      generalize W0 m ρ c = V
      after_results_simp)
    _ = m ((c : Thread nD τ).loc main_arg0) := rfl
/-- The first region reads W0 as launched. -/
theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := (by
      show StableHlo.after hostOps0 (W0 m ρ c) (Proc.devRef .tc main_arg2) = W0 m ρ c (Proc.devRef .tc main_arg2)
      generalize W0 m ρ c = V
      after_results_simp)
    _ = m ((c : Thread nD τ).loc main_arg2) := rfl
/-- The sources' list after the first region. -/
theorem W2_v1_W1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
/-- The targets' list after the first region. -/
theorem W2_v3_W1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
/-- The first bias as the first aggregation reads it. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (by
      show StableHlo.after hostOps0 (W0 m ρ c) (Proc.devRef .tc main_arg3) = W0 m ρ c (Proc.devRef .tc main_arg3)
      generalize W0 m ρ c = V
      after_results_simp)
    _ = m ((c : Thread nD τ).loc main_arg3) := rfl
/-- Argument 4 as the second region reads it. -/
theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (by
      show StableHlo.after hostOps1_2 (W4 m ρ c) (Proc.devRef .tc main_arg4) = W4 m ρ c (Proc.devRef .tc main_arg4)
      generalize W4 m ρ c = V
      after_results_simp)
    _ = W3 m ρ c (Proc.devRef .tc main_arg4) := (by
      show StableHlo.after hostOps1_1 (W3 m ρ c) (Proc.devRef .tc main_arg4) = W3 m ρ c (Proc.devRef .tc main_arg4)
      generalize W3 m ρ c = V
      after_results_simp)
    _ = W2 m ρ c (Proc.devRef .tc main_arg4) := (by
      show StableHlo.after hostOps1 (W2 m ρ c) (Proc.devRef .tc main_arg4) = W2 m ρ c (Proc.devRef .tc main_arg4)
      generalize W2 m ρ c = V
      after_results_simp)
    _ = W1 m ρ c (Proc.devRef .tc main_arg4) := W2_of_ne m ρ c main_arg4 (by decide)
    _ = W0 m ρ c (Proc.devRef .tc main_arg4) := (by
      show StableHlo.after hostOps0 (W0 m ρ c) (Proc.devRef .tc main_arg4) = W0 m ρ c (Proc.devRef .tc main_arg4)
      generalize W0 m ρ c = V
      after_results_simp)
    _ = m ((c : Thread nD τ).loc main_arg4) := rfl
/-- Argument 6 as the second region reads it. -/
theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := (by
      show StableHlo.after hostOps1_2 (W4 m ρ c) (Proc.devRef .tc main_arg6) = W4 m ρ c (Proc.devRef .tc main_arg6)
      generalize W4 m ρ c = V
      after_results_simp)
    _ = W3 m ρ c (Proc.devRef .tc main_arg6) := (by
      show StableHlo.after hostOps1_1 (W3 m ρ c) (Proc.devRef .tc main_arg6) = W3 m ρ c (Proc.devRef .tc main_arg6)
      generalize W3 m ρ c = V
      after_results_simp)
    _ = W2 m ρ c (Proc.devRef .tc main_arg6) := (by
      show StableHlo.after hostOps1 (W2 m ρ c) (Proc.devRef .tc main_arg6) = W2 m ρ c (Proc.devRef .tc main_arg6)
      generalize W2 m ρ c = V
      after_results_simp)
    _ = W1 m ρ c (Proc.devRef .tc main_arg6) := W2_of_ne m ρ c main_arg6 (by decide)
    _ = W0 m ρ c (Proc.devRef .tc main_arg6) := (by
      show StableHlo.after hostOps0 (W0 m ρ c) (Proc.devRef .tc main_arg6) = W0 m ρ c (Proc.devRef .tc main_arg6)
      generalize W0 m ρ c = V
      after_results_simp)
    _ = m ((c : Thread nD τ).loc main_arg6) := rfl
/-- Argument 7 as the second region reads it. -/
theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := (by
      show StableHlo.after hostOps1_2 (W4 m ρ c) (Proc.devRef .tc main_arg7) = W4 m ρ c (Proc.devRef .tc main_arg7)
      generalize W4 m ρ c = V
      after_results_simp)
    _ = W3 m ρ c (Proc.devRef .tc main_arg7) := (by
      show StableHlo.after hostOps1_1 (W3 m ρ c) (Proc.devRef .tc main_arg7) = W3 m ρ c (Proc.devRef .tc main_arg7)
      generalize W3 m ρ c = V
      after_results_simp)
    _ = W2 m ρ c (Proc.devRef .tc main_arg7) := (by
      show StableHlo.after hostOps1 (W2 m ρ c) (Proc.devRef .tc main_arg7) = W2 m ρ c (Proc.devRef .tc main_arg7)
      generalize W2 m ρ c = V
      after_results_simp)
    _ = W1 m ρ c (Proc.devRef .tc main_arg7) := W2_of_ne m ρ c main_arg7 (by decide)
    _ = W0 m ρ c (Proc.devRef .tc main_arg7) := (by
      show StableHlo.after hostOps0 (W0 m ρ c) (Proc.devRef .tc main_arg7) = W0 m ρ c (Proc.devRef .tc main_arg7)
      generalize W0 m ρ c = V
      after_results_simp)
    _ = m ((c : Thread nD τ).loc main_arg7) := rfl
/-- Argument 8 as the second region reads it. -/
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := (by
      show StableHlo.after hostOps1_2 (W4 m ρ c) (Proc.devRef .tc main_arg8) = W4 m ρ c (Proc.devRef .tc main_arg8)
      generalize W4 m ρ c = V
      after_results_simp)
    _ = W3 m ρ c (Proc.devRef .tc main_arg8) := (by
      show StableHlo.after hostOps1_1 (W3 m ρ c) (Proc.devRef .tc main_arg8) = W3 m ρ c (Proc.devRef .tc main_arg8)
      generalize W3 m ρ c = V
      after_results_simp)
    _ = W2 m ρ c (Proc.devRef .tc main_arg8) := (by
      show StableHlo.after hostOps1 (W2 m ρ c) (Proc.devRef .tc main_arg8) = W2 m ρ c (Proc.devRef .tc main_arg8)
      generalize W2 m ρ c = V
      after_results_simp)
    _ = W1 m ρ c (Proc.devRef .tc main_arg8) := W2_of_ne m ρ c main_arg8 (by decide)
    _ = W0 m ρ c (Proc.devRef .tc main_arg8) := (by
      show StableHlo.after hostOps0 (W0 m ρ c) (Proc.devRef .tc main_arg8) = W0 m ρ c (Proc.devRef .tc main_arg8)
      generalize W0 m ρ c = V
      after_results_simp)
    _ = m ((c : Thread nD τ).loc main_arg8) := rfl
/-- Argument 9 as the second region reads it. -/
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := (by
      show StableHlo.after hostOps1_2 (W4 m ρ c) (Proc.devRef .tc main_arg9) = W4 m ρ c (Proc.devRef .tc main_arg9)
      generalize W4 m ρ c = V
      after_results_simp)
    _ = W3 m ρ c (Proc.devRef .tc main_arg9) := (by
      show StableHlo.after hostOps1_1 (W3 m ρ c) (Proc.devRef .tc main_arg9) = W3 m ρ c (Proc.devRef .tc main_arg9)
      generalize W3 m ρ c = V
      after_results_simp)
    _ = W2 m ρ c (Proc.devRef .tc main_arg9) := (by
      show StableHlo.after hostOps1 (W2 m ρ c) (Proc.devRef .tc main_arg9) = W2 m ρ c (Proc.devRef .tc main_arg9)
      generalize W2 m ρ c = V
      after_results_simp)
    _ = W1 m ρ c (Proc.devRef .tc main_arg9) := W2_of_ne m ρ c main_arg9 (by decide)
    _ = W0 m ρ c (Proc.devRef .tc main_arg9) := (by
      show StableHlo.after hostOps0 (W0 m ρ c) (Proc.devRef .tc main_arg9) = W0 m ρ c (Proc.devRef .tc main_arg9)
      generalize W0 m ρ c = V
      after_results_simp)
    _ = m ((c : Thread nD τ).loc main_arg9) := rfl
/-- The sources' list between the second and the third region. -/
theorem W6_v1_W2 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := (by
      show StableHlo.after hostOps1_2 (W4 m ρ c) (Proc.devRef .tc main_v1) = W4 m ρ c (Proc.devRef .tc main_v1)
      generalize W4 m ρ c = V
      after_results_simp)
    _ = W3 m ρ c (Proc.devRef .tc main_v1) := (by
      show StableHlo.after hostOps1_1 (W3 m ρ c) (Proc.devRef .tc main_v1) = W3 m ρ c (Proc.devRef .tc main_v1)
      generalize W3 m ρ c = V
      after_results_simp)
    _ = W2 m ρ c (Proc.devRef .tc main_v1) := (by
      show StableHlo.after hostOps1 (W2 m ρ c) (Proc.devRef .tc main_v1) = W2 m ρ c (Proc.devRef .tc main_v1)
      generalize W2 m ρ c = V
      after_results_simp)
/-- The targets' list between the second and the third region. -/
theorem W6_v3_W2 (c : Dev nD) : W6 m ρ c (Proc.devRef .tc main_v3) = W2 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := (by
      show StableHlo.after hostOps1_2 (W4 m ρ c) (Proc.devRef .tc main_v3) = W4 m ρ c (Proc.devRef .tc main_v3)
      generalize W4 m ρ c = V
      after_results_simp)
    _ = W3 m ρ c (Proc.devRef .tc main_v3) := (by
      show StableHlo.after hostOps1_1 (W3 m ρ c) (Proc.devRef .tc main_v3) = W3 m ρ c (Proc.devRef .tc main_v3)
      generalize W3 m ρ c = V
      after_results_simp)
    _ = W2 m ρ c (Proc.devRef .tc main_v3) := (by
      show StableHlo.after hostOps1 (W2 m ρ c) (Proc.devRef .tc main_v3) = W2 m ρ c (Proc.devRef .tc main_v3)
      generalize W2 m ρ c = V
      after_results_simp)
/-- The attention vector as the third region reads it. -/
theorem W7_arg10 (c : Dev nD) : W7 m ρ c (Proc.devRef .tc main_arg10) = m ((c : Thread nD τ).loc main_arg10) :=
  calc W7 m ρ c (Proc.devRef .tc main_arg10)
    _ = W6 m ρ c (Proc.devRef .tc main_arg10) := (by
      show StableHlo.after hostOps2 (W6 m ρ c) (Proc.devRef .tc main_arg10) = W6 m ρ c (Proc.devRef .tc main_arg10)
      generalize W6 m ρ c = V
      after_results_simp)
    _ = W5 m ρ c (Proc.devRef .tc main_arg10) := W6_of_ne m ρ c main_arg10 (by decide)
    _ = W4 m ρ c (Proc.devRef .tc main_arg10) := (by
      show StableHlo.after hostOps1_2 (W4 m ρ c) (Proc.devRef .tc main_arg10) = W4 m ρ c (Proc.devRef .tc main_arg10)
      generalize W4 m ρ c = V
      after_results_simp)
    _ = W3 m ρ c (Proc.devRef .tc main_arg10) := (by
      show StableHlo.after hostOps1_1 (W3 m ρ c) (Proc.devRef .tc main_arg10) = W3 m ρ c (Proc.devRef .tc main_arg10)
      generalize W3 m ρ c = V
      after_results_simp)
    _ = W2 m ρ c (Proc.devRef .tc main_arg10) := (by
      show StableHlo.after hostOps1 (W2 m ρ c) (Proc.devRef .tc main_arg10) = W2 m ρ c (Proc.devRef .tc main_arg10)
      generalize W2 m ρ c = V
      after_results_simp)
    _ = W1 m ρ c (Proc.devRef .tc main_arg10) := W2_of_ne m ρ c main_arg10 (by decide)
    _ = W0 m ρ c (Proc.devRef .tc main_arg10) := (by
      show StableHlo.after hostOps0 (W0 m ρ c) (Proc.devRef .tc main_arg10) = W0 m ρ c (Proc.devRef .tc main_arg10)
      generalize W0 m ρ c = V
      after_results_simp)
    _ = m ((c : Thread nD τ).loc main_arg10) := rfl
/-- The attention bias as the third region reads it. -/
theorem W7_arg11 (c : Dev nD) : W7 m ρ c (Proc.devRef .tc main_arg11) = m ((c : Thread nD τ).loc main_arg11) :=
  calc W7 m ρ c (Proc.devRef .tc main_arg11)
    _ = W6 m ρ c (Proc.devRef .tc main_arg11) := (by
      show StableHlo.after hostOps2 (W6 m ρ c) (Proc.devRef .tc main_arg11) = W6 m ρ c (Proc.devRef .tc main_arg11)
      generalize W6 m ρ c = V
      after_results_simp)
    _ = W5 m ρ c (Proc.devRef .tc main_arg11) := W6_of_ne m ρ c main_arg11 (by decide)
    _ = W4 m ρ c (Proc.devRef .tc main_arg11) := (by
      show StableHlo.after hostOps1_2 (W4 m ρ c) (Proc.devRef .tc main_arg11) = W4 m ρ c (Proc.devRef .tc main_arg11)
      generalize W4 m ρ c = V
      after_results_simp)
    _ = W3 m ρ c (Proc.devRef .tc main_arg11) := (by
      show StableHlo.after hostOps1_1 (W3 m ρ c) (Proc.devRef .tc main_arg11) = W3 m ρ c (Proc.devRef .tc main_arg11)
      generalize W3 m ρ c = V
      after_results_simp)
    _ = W2 m ρ c (Proc.devRef .tc main_arg11) := (by
      show StableHlo.after hostOps1 (W2 m ρ c) (Proc.devRef .tc main_arg11) = W2 m ρ c (Proc.devRef .tc main_arg11)
      generalize W2 m ρ c = V
      after_results_simp)
    _ = W1 m ρ c (Proc.devRef .tc main_arg11) := W2_of_ne m ρ c main_arg11 (by decide)
    _ = W0 m ρ c (Proc.devRef .tc main_arg11) := (by
      show StableHlo.after hostOps0 (W0 m ρ c) (Proc.devRef .tc main_arg11) = W0 m ρ c (Proc.devRef .tc main_arg11)
      generalize W0 m ρ c = V
      after_results_simp)
    _ = m ((c : Thread nD τ).loc main_arg11) := rfl
/-- The sources' list after the third region. -/
theorem W8_v1_W6 (c : Dev nD) : W8 m ρ c (Proc.devRef .tc main_v1) = W6 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := (by
      show StableHlo.after hostOps2 (W6 m ρ c) (Proc.devRef .tc main_v1) = W6 m ρ c (Proc.devRef .tc main_v1)
      generalize W6 m ρ c = V
      after_results_simp)
/-- The targets' list after the third region. -/
theorem W8_v3_W6 (c : Dev nD) : W8 m ρ c (Proc.devRef .tc main_v3) = W6 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := (by
      show StableHlo.after hostOps2 (W6 m ρ c) (Proc.devRef .tc main_v3) = W6 m ρ c (Proc.devRef .tc main_v3)
      generalize W6 m ρ c = V
      after_results_simp)
/-- The second bias as the second aggregation reads it. -/
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := (by
      show StableHlo.after hostOps2 (W6 m ρ c) (Proc.devRef .tc main_arg5) = W6 m ρ c (Proc.devRef .tc main_arg5)
      generalize W6 m ρ c = V
      after_results_simp)
    _ = W5 m ρ c (Proc.devRef .tc main_arg5) := W6_of_ne m ρ c main_arg5 (by decide)
    _ = W4 m ρ c (Proc.devRef .tc main_arg5) := (by
      show StableHlo.after hostOps1_2 (W4 m ρ c) (Proc.devRef .tc main_arg5) = W4 m ρ c (Proc.devRef .tc main_arg5)
      generalize W4 m ρ c = V
      after_results_simp)
    _ = W3 m ρ c (Proc.devRef .tc main_arg5) := (by
      show StableHlo.after hostOps1_1 (W3 m ρ c) (Proc.devRef .tc main_arg5) = W3 m ρ c (Proc.devRef .tc main_arg5)
      generalize W3 m ρ c = V
      after_results_simp)
    _ = W2 m ρ c (Proc.devRef .tc main_arg5) := (by
      show StableHlo.after hostOps1 (W2 m ρ c) (Proc.devRef .tc main_arg5) = W2 m ρ c (Proc.devRef .tc main_arg5)
      generalize W2 m ρ c = V
      after_results_simp)
    _ = W1 m ρ c (Proc.devRef .tc main_arg5) := W2_of_ne m ρ c main_arg5 (by decide)
    _ = W0 m ρ c (Proc.devRef .tc main_arg5) := (by
      show StableHlo.after hostOps0 (W0 m ρ c) (Proc.devRef .tc main_arg5) = W0 m ρ c (Proc.devRef .tc main_arg5)
      generalize W0 m ρ c = V
      after_results_simp)
    _ = m ((c : Thread nD τ).loc main_arg5) := rfl
/-- The second region's third output as the second aggregation reads it. -/
theorem W8_v50_2_W6 (c : Dev nD) : W8 m ρ c (Proc.devRef .tc main_v50_2) = W6 m ρ c (Proc.devRef .tc main_v50_2) :=
  calc W8 m ρ c (Proc.devRef .tc main_v50_2)
    _ = W7 m ρ c (Proc.devRef .tc main_v50_2) := W8_of_ne m ρ c main_v50_2 (by decide)
    _ = W6 m ρ c (Proc.devRef .tc main_v50_2) := (by
      show StableHlo.after hostOps2 (W6 m ρ c) (Proc.devRef .tc main_v50_2) = W6 m ρ c (Proc.devRef .tc main_v50_2)
      generalize W6 m ρ c = V
      after_results_simp)

end Cert.KernelIdeal.KWalk

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«161898_j54245436949038_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Region1.lean ====
/-
  The second region's three output arrays, entry by entry.

  The region walks the 100000 rows of h in 10 blocks of 10000 rows.  At block t it takes rows
  10000 t … 10000 t + 9999 of h (all 32 columns) and three whole 32 × 8 matrices, and writes three 10000 × 8
  results over the same rows of its three outputs: h · Wnb plus the row bnb added to every row, h · Wself plus the
  row bself added to every row, and h · W1.  Rounding an operand to a narrower format changes nothing over the
  extended reals, each accumulator starts at zero, an 8-vector seen as a 1 × 8 array and spread over 10000 rows reads
  its entry q in column q.  So entry (p, q) of a block's result is Σ_j h(10000 t + p, j) · W(j, q) (+ b(q)), and
  since every row n lies in exactly the block n / 10000, entry (n, k) of each output after the last block is the
  same expression at row n.
-/
import proofs.«161898_j54245436949038_1_alg».proof.Proof.Gen.KernelIdeal.Frame
import proofs.«161898_j54245436949038_1_alg».proof.Proof.Spec
import proofs.«161898_j54245436949038_1_alg».proof.Proof.LibPlainDotFormats
import proofs.«161898_j54245436949038_1_alg».proof.Proof.LibRowLayout
import Idealize.ShloMosaic.Lib.Pipeline.Value

set_option maxRecDepth 16384

noncomputable section

namespace Cert.KernelIdeal.R1

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The zero offsets, as constant functions. -/
theorem hz : (![0, 0] : Fin 2 → Nat) = fun _ => 0 := funext fun a => by fin_cases a <;> rfl
theorem hz1 : (![0] : Fin 1 → Nat) = fun _ => 0 := funext fun a => by fin_cases a <;> rfl

/-- An affine map of every row of h, entry by entry. -/
def Gaff (h : S100000x32.Idx → EReal) (W : S32x8.Idx → EReal) (b : S8.Idx → EReal) : S100000x8.Idx → EReal :=
  fun i => Cert.Spec.f1 h W b (i 0) (i 1)

/-- A linear map of every row of h, entry by entry. -/
def Glin (h : S100000x32.Idx → EReal) (W : S32x8.Idx → EReal) : S100000x8.Idx → EReal :=
  fun i => ∑ j : Fin 32, h (ix2 (i 0) j) * W (ix2 j (i 1))

/-- Entry (n, k) of the product of a 100000 × 32 array with a 32 × 8 array. -/
def prod (l : S100000x32.Idx → EReal) (r : S32x8.Idx → EReal) (n : Fin 100000) (k : Fin 8) : EReal :=
  ∑ j : Fin 32, l (ix2 n j) * r (ix2 j k)

/-- The contraction's dimension numbers are those of a plain matrix product. -/
theorem plain1 : Cert.LibPlainDot.Plain dot_S10000x32_S32x8_S10000x8_1_0_0_1_n_n := ⟨rfl, rfl, rfl, rfl, rfl, rfl⟩

/-- The left operand of the three products is the block of h itself. -/
theorem pay1_apply (x0 : Vec Ideal S10000x32 .f32) (i : S10000x32.Idx) : k1_pay1 x0 i = x0 i := by
  unfold k1_pay1
  show shapeCast S10000x32 x0 shapeCasts_S10000x32_S10000x32 i = x0 i
  rw [shapeCast_self]

/-- Entry (p, q) of a product of the block of h with a 32 × 8 matrix. -/
theorem mm_apply (x0 : Vec Ideal S10000x32 .f32) (x1 : Vec Ideal S32x8 .f32) (p : Fin 10000) (q : Fin 8) :
    FloatOps.matmul dot_S10000x32_S32x8_S10000x8_1_0_0_1_n_n none (k1_pay1 x0) (truncf .bf16 x1 bitsLt_bf16_f32)
        (constant S10000x8 .f32 0x00000000#32) (ix2 p q)
      = ∑ j : Fin 32, x0 (ix2 p j) * x1 (ix2 j q) := by
  refine (plain1.matmul_zero_apply_formats none _ _ p q).trans ?_
  refine Finset.sum_congr rfl fun j _ => ?_
  rw [pay1_apply]
  rfl

/-- Entry (p, q) of the spread bias row. -/
theorem bias_apply (x2 : Vec Ideal S8 .f32) (p : Fin 10000) (q : Fin 8) :
    broadcastTo S10000x8 (shapeCast S1x8 x2 shapeCasts_S8_S1x8) broadcasts_S1x8_S10000x8 (ix2 p q) = x2 (ix1 q) :=
  (Cert.LibRowLayout.broadcastTo_1b_ab_apply _ _ p q).trans (Cert.LibRowLayout.shapeCast_b_1b_apply _ _ 0 q)

/-- Entry (p, q) of what the body stores in the first output's block. -/
theorem pay2_apply (x0 : Vec Ideal S10000x32 .f32) (x1 : Vec Ideal S32x8 .f32) (x2 : Vec Ideal S8 .f32) (p : Fin 10000) (q : Fin 8) :
    k1_pay2 x0 x1 x2 (ix2 p q) = (∑ j : Fin 32, x0 (ix2 p j) * x1 (ix2 j q)) + x2 (ix1 q) := by
  unfold k1_pay2
  exact (addf_apply _ _ _).trans (congrArg₂ (· + ·) (mm_apply x0 x1 p q) (bias_apply x2 p q))

/-- Entry (p, q) of what the body stores in the second output's block. -/
theorem pay3_apply (x0 : Vec Ideal S10000x32 .f32) (x1 : Vec Ideal S32x8 .f32) (x2 : Vec Ideal S8 .f32) (p : Fin 10000) (q : Fin 8) :
    k1_pay3 x0 x1 x2 (ix2 p q) = (∑ j : Fin 32, x0 (ix2 p j) * x1 (ix2 j q)) + x2 (ix1 q) := by
  unfold k1_pay3
  exact (addf_apply _ _ _).trans (congrArg₂ (· + ·) (mm_apply x0 x1 p q) (bias_apply x2 p q))

/-- Entry (p, q) of what the body stores in the third output's block. -/
theorem pay4_apply (x0 : Vec Ideal S10000x32 .f32) (x1 : Vec Ideal S32x8 .f32) (p : Fin 10000) (q : Fin 8) :
    k1_pay4 x0 x1 (ix2 p q) = ∑ j : Fin 32, x0 (ix2 p j) * x1 (ix2 j q) := by
  unfold k1_pay4
  exact mm_apply x0 x1 p q

/-- The block indices at point t, decided over the 10 points: h and the three outputs move down with t, the
    matrices and the bias rows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row p of block t is a row of the array. -/
theorem row_lt (t : Fin cfg1.N) (p : Fin 10000) : t.val * 10000 + p.val < 100000 := by
  have h1 := t.isLt
  have h2 : cfg1.N = 10 := N_1
  omega

/-- The array row under row `p` of block `t`. -/
def row (t : Fin cfg1.N) (p : Fin 10000) : Fin 100000 := ⟨t.val * 10000 + p.val, row_lt t p⟩

/-- Where entry (p, j) of h's block t sits in h. -/
theorem emb0 (t : Fin cfg1.N) (p : Fin 10000) (j : Fin 32) :
    ((cfg1.win 0).blk t).view.emb (ix2 p j : S10000x32.Idx) = (ix2 (row t p) j : S100000x32.Idx) := by
  obtain ⟨e0, e1, -⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 32 + 1 * j.val = j.val; omega

/-- Each matrix's block is the matrix itself. -/
theorem emb1 (t : Fin cfg1.N) (j : Fin 32) (q : Fin 8) :
    ((cfg1.win 1).blk t).view.emb (ix2 j q : S32x8.Idx) = (ix2 j q : S32x8.Idx) := by
  obtain ⟨-, -, e0, e1, -⟩ := idx_facts t
  funext a; apply Fin.ext
  match a with
  | ⟨0, _⟩ => show win1_1.index t (0 : Fin 2) * 32 + 1 * j.val = j.val; omega
  | ⟨1, _⟩ => show win1_1.index t (1 : Fin 2) * 8 + 1 * q.val = q.val; omega
theorem emb3 (t : Fin cfg1.N) (j : Fin 32) (q : Fin 8) :
    ((cfg1.win 3).blk t).view.emb (ix2 j q : S32x8.Idx) = (ix2 j q : S32x8.Idx) := by
  obtain ⟨-, -, -, -, -, e0, e1, -⟩ := idx_facts t
  funext a; apply Fin.ext
  match a with
  | ⟨0, _⟩ => show win1_3.index t (0 : Fin 2) * 32 + 1 * j.val = j.val; omega
  | ⟨1, _⟩ => show win1_3.index t (1 : Fin 2) * 8 + 1 * q.val = q.val; omega
theorem emb5 (t : Fin cfg1.N) (j : Fin 32) (q : Fin 8) :
    ((cfg1.win 5).blk t).view.emb (ix2 j q : S32x8.Idx) = (ix2 j q : S32x8.Idx) := by
  obtain ⟨-, -, -, -, -, -, -, -, e0, e1, -⟩ := idx_facts t
  funext a; apply Fin.ext
  match a with
  | ⟨0, _⟩ => show win1_5.index t (0 : Fin 2) * 32 + 1 * j.val = j.val; omega
  | ⟨1, _⟩ => show win1_5.index t (1 : Fin 2) * 8 + 1 * q.val = q.val; omega

/-- Each bias row's block is the row itself. -/
theorem emb2 (t : Fin cfg1.N) (q : Fin 8) :
    ((cfg1.win 2).blk t).view.emb (ix1 q : S8.Idx) = (ix1 q : S8.Idx) := by
  obtain ⟨-, -, -, -, e0, -⟩ := idx_facts t
  funext a; apply Fin.ext
  match a with
  | ⟨0, _⟩ => show win1_2.index t (0 : Fin 1) * 8 + 1 * q.val = q.val; omega
theorem emb4 (t : Fin cfg1.N) (q : Fin 8) :
    ((cfg1.win 4).blk t).view.emb (ix1 q : S8.Idx) = (ix1 q : S8.Idx) := by
  obtain ⟨-, -, -, -, -, -, -, e0, -⟩ := idx_facts t
  funext a; apply Fin.ext
  match a with
  | ⟨0, _⟩ => show win1_4.index t (0 : Fin 1) * 8 + 1 * q.val = q.val; omega

/-- Where entry (p, q) of an output's block t sits in the output. -/
theorem emb6 (t : Fin cfg1.N) (p : Fin 10000) (q : Fin 8) :
    ((cfg1.win 6).blk t).view.emb (ix2 p q : S10000x8.Idx) = (ix2 (row t p) q : S100000x8.Idx) := by
  obtain ⟨-, -, -, -, -, -, -, -, -, -, e0, e1, -⟩ := idx_facts t
  funext a; apply Fin.ext
  match a with
  | ⟨0, _⟩ => show win1_6.index t (0 : Fin 2) * 10000 + 1 * p.val = t.val * 10000 + p.val; omega
  | ⟨1, _⟩ => show win1_6.index t (1 : Fin 2) * 8 + 1 * q.val = q.val; omega
theorem emb7 (t : Fin cfg1.N) (p : Fin 10000) (q : Fin 8) :
    ((cfg1.win 7).blk t).view.emb (ix2 p q : S10000x8.Idx) = (ix2 (row t p) q : S100000x8.Idx) := by
  obtain ⟨-, -, -, -, -, -, -, -, -, -, -, -, e0, e1, -⟩ := idx_facts t
  funext a; apply Fin.ext
  match a with
  | ⟨0, _⟩ => show win1_7.index t (0 : Fin 2) * 10000 + 1 * p.val = t.val * 10000 + p.val; omega
  | ⟨1, _⟩ => show win1_7.index t (1 : Fin 2) * 8 + 1 * q.val = q.val; omega
theorem emb8 (t : Fin cfg1.N) (p : Fin 10000) (q : Fin 8) :
    ((cfg1.win 8).blk t).view.emb (ix2 p q : S10000x8.Idx) = (ix2 (row t p) q : S100000x8.Idx) := by
  obtain ⟨-, -, -, -, -, -, -, -, -, -, -, -, -, -, e0, e1⟩ := idx_facts t
  funext a; apply Fin.ext
  match a with
  | ⟨0, _⟩ => show win1_8.index t (0 : Fin 2) * 10000 + 1 * p.val = t.val * 10000 + p.val; omega
  | ⟨1, _⟩ => show win1_8.index t (1 : Fin 2) * 8 + 1 * q.val = q.val; omega

/-- The input blocks at point t, read at an entry. -/
theorem iblk1_0_apply (t : Fin cfg1.N) (p : Fin 10000) (j : Fin 32) :
    iblk1 (F := Ideal) V c 0 t (ix2 p j) = V c main_v49 (ix2 (row t p) j) := by
  show V c main_v49 (((cfg1.win 0).blk t).view.emb (ix2 p j : S10000x32.Idx)) = _
  rw [emb0]
theorem iblk1_1_apply (t : Fin cfg1.N) (j : Fin 32) (q : Fin 8) :
    iblk1 (F := Ideal) V c 1 t (ix2 j q) = V c main_arg6 (ix2 j q) := by
  show V c main_arg6 (((cfg1.win 1).blk t).view.emb (ix2 j q : S32x8.Idx)) = _
  rw [emb1]
theorem iblk1_2_apply (t : Fin cfg1.N) (q : Fin 8) :
    iblk1 (F := Ideal) V c 2 t (ix1 q) = V c main_arg7 (ix1 q) := by
  show V c main_arg7 (((cfg1.win 2).blk t).view.emb (ix1 q : S8.Idx)) = _
  rw [emb2]
theorem iblk1_3_apply (t : Fin cfg1.N) (j : Fin 32) (q : Fin 8) :
    iblk1 (F := Ideal) V c 3 t (ix2 j q) = V c main_arg8 (ix2 j q) := by
  show V c main_arg8 (((cfg1.win 3).blk t).view.emb (ix2 j q : S32x8.Idx)) = _
  rw [emb3]
theorem iblk1_4_apply (t : Fin cfg1.N) (q : Fin 8) :
    iblk1 (F := Ideal) V c 4 t (ix1 q) = V c main_arg9 (ix1 q) := by
  show V c main_arg9 (((cfg1.win 4).blk t).view.emb (ix1 q : S8.Idx)) = _
  rw [emb4]
theorem iblk1_5_apply (t : Fin cfg1.N) (j : Fin 32) (q : Fin 8) :
    iblk1 (F := Ideal) V c 5 t (ix2 j q) = V c main_arg4 (ix2 j q) := by
  show V c main_arg4 (((cfg1.win 5).blk t).view.emb (ix2 j q : S32x8.Idx)) = _
  rw [emb5]

/-- What point t writes back to the first output is block t of the first affine map of h. -/
theorem flushed6_eq (t : Fin cfg1.N) :
    (dat1 (F := Ideal) V c).flushed 6 t = ((cfg1.win 6).blk t).view.read (Elt Ideal) (Gaff (V c main_v49) (V c main_arg6) (V c main_arg7)) := by
  show (cfg1.win 6).cut (grid1.coords t) ((dat1 V c).after 6 t) = _
  rw [after1_6]
  unfold out1_6
  rw [View.canon_unit_zero hz]
  simp only [View.ld_unit_zero (S := S10000x32) hz, View.ld_unit_zero (S := S32x8) hz, View.ld_unit_zero (S := S8) hz1]
  funext i
  obtain ⟨p, q, rfl⟩ : ∃ (p : Fin 10000) (q : Fin 8), i = ix2 p q := ⟨i 0, i 1, eq_ix2 i⟩
  show k1_pay2 (iblk1 V c 0 t) (iblk1 V c 1 t) (iblk1 V c 2 t) (ix2 p q)
    = Gaff (V c main_v49) (V c main_arg6) (V c main_arg7) (((cfg1.win 6).blk t).view.emb (ix2 p q : S10000x8.Idx))
  rw [pay2_apply, emb6]
  show _ = (∑ j : Fin 32, @HMul.hMul EReal EReal EReal instHMul (V c main_v49 (ix2 (row t p) j)) (V c main_arg6 (ix2 j q)))
    + (V c main_arg7 (ix1 q) : EReal)
  rw [iblk1_2_apply]
  refine congrArg (· + _) (Finset.sum_congr rfl fun j _ => ?_)
  rw [iblk1_0_apply, iblk1_1_apply]

/-- What point t writes back to the second output is block t of the second affine map of h. -/
theorem flushed7_eq (t : Fin cfg1.N) :
    (dat1 (F := Ideal) V c).flushed 7 t = ((cfg1.win 7).blk t).view.read (Elt Ideal) (Gaff (V c main_v49) (V c main_arg8) (V c main_arg9)) := by
  show (cfg1.win 7).cut (grid1.coords t) ((dat1 V c).after 7 t) = _
  rw [after1_7]
  unfold out1_7
  rw [View.canon_unit_zero hz]
  simp only [View.ld_unit_zero (S := S10000x32) hz, View.ld_unit_zero (S := S32x8) hz, View.ld_unit_zero (S := S8) hz1]
  funext i
  obtain ⟨p, q, rfl⟩ : ∃ (p : Fin 10000) (q : Fin 8), i = ix2 p q := ⟨i 0, i 1, eq_ix2 i⟩
  show k1_pay3 (iblk1 V c 0 t) (iblk1 V c 3 t) (iblk1 V c 4 t) (ix2 p q)
    = Gaff (V c main_v49) (V c main_arg8) (V c main_arg9) (((cfg1.win 7).blk t).view.emb (ix2 p q : S10000x8.Idx))
  rw [pay3_apply, emb7]
  show _ = (∑ j : Fin 32, @HMul.hMul EReal EReal EReal instHMul (V c main_v49 (ix2 (row t p) j)) (V c main_arg8 (ix2 j q)))
    + (V c main_arg9 (ix1 q) : EReal)
  rw [iblk1_4_apply]
  refine congrArg (· + _) (Finset.sum_congr rfl fun j _ => ?_)
  rw [iblk1_0_apply, iblk1_3_apply]

/-- What point t writes back to the third output is block t of the linear map of h. -/
theorem flushed8_eq (t : Fin cfg1.N) :
    (dat1 (F := Ideal) V c).flushed 8 t = ((cfg1.win 8).blk t).view.read (Elt Ideal) (Glin (V c main_v49) (V c main_arg4)) := by
  show (cfg1.win 8).cut (grid1.coords t) ((dat1 V c).after 8 t) = _
  rw [after1_8]
  unfold out1_8
  rw [View.canon_unit_zero hz]
  simp only [View.ld_unit_zero (S := S10000x32) hz, View.ld_unit_zero (S := S32x8) hz]
  funext i
  obtain ⟨p, q, rfl⟩ : ∃ (p : Fin 10000) (q : Fin 8), i = ix2 p q := ⟨i 0, i 1, eq_ix2 i⟩
  show k1_pay4 (iblk1 V c 0 t) (iblk1 V c 5 t) (ix2 p q)
    = Glin (V c main_v49) (V c main_arg4) (((cfg1.win 8).blk t).view.emb (ix2 p q : S10000x8.Idx))
  rw [pay4_apply, emb8]
  show _ = ∑ j : Fin 32, @HMul.hMul EReal EReal EReal instHMul (V c main_v49 (ix2 (row t p) j)) (V c main_arg4 (ix2 j q))
  refine Finset.sum_congr rfl fun j _ => ?_
  rw [iblk1_0_apply, iblk1_5_apply]

/-- An index is in an output's block t iff each coordinate is in the block's range on its axis. -/
theorem mem_blk6 (t : Fin cfg1.N) (i : S100000x8.Idx) :
    i ∈ ((cfg1.win 6).blk t).view.set ↔ ∀ a : Fin 2, win1_6.index t a * S10000x8.size a ≤ (i a).val ∧ (i a).val < win1_6.index t a * S10000x8.size a + S10000x8.size a := by
  show i ∈ ((View.whole main_v50_0).slice (win1_6.rect t)).set ↔ _
  rw [View.set_slice_whole, Rect.mem_set_unit]
  exact Iff.rfl
theorem mem_blk7 (t : Fin cfg1.N) (i : S100000x8.Idx) :
    i ∈ ((cfg1.win 7).blk t).view.set ↔ ∀ a : Fin 2, win1_7.index t a * S10000x8.size a ≤ (i a).val ∧ (i a).val < win1_7.index t a * S10000x8.size a + S10000x8.size a := by
  show i ∈ ((View.whole main_v50_1).slice (win1_7.rect t)).set ↔ _
  rw [View.set_slice_whole, Rect.mem_set_unit]
  exact Iff.rfl
theorem mem_blk8 (t : Fin cfg1.N) (i : S100000x8.Idx) :
    i ∈ ((cfg1.win 8).blk t).view.set ↔ ∀ a : Fin 2, win1_8.index t a * S10000x8.size a ≤ (i a).val ∧ (i a).val < win1_8.index t a * S10000x8.size a + S10000x8.size a := by
  show i ∈ ((View.whole main_v50_2).slice (win1_8.rect t)).set ↔ _
  rw [View.set_slice_whole, Rect.mem_set_unit]
  exact Iff.rfl

/-- Row n lies in block n / 10000, in each of the three outputs. -/
theorem cover6 (i : S100000x8.Idx) : ∃ t : Fin cfg1.N, (cfg1.win 6).flush t = true ∧ i ∈ ((cfg1.win 6).blk t).view.set := by
  have hi0 : (i 0).val < 100000 := (i 0).isLt
  have hi1 : (i 1).val < 8 := (i 1).isLt
  have hN : cfg1.N = 10 := N_1
  let t : Fin cfg1.N := ⟨(i 0).val / 10000, by omega⟩
  obtain ⟨-, -, -, -, -, -, -, -, -, -, e0, e1, -⟩ := idx_facts t
  have ht : t.val = (i 0).val / 10000 := rfl
  refine ⟨t, flush1_6 t, ?_⟩
  rw [mem_blk6]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 8 ≤ (i 1).val ∧ (i 1).val < win1_6.index t (1 : Fin 2) * 8 + 8; omega
theorem cover7 (i : S100000x8.Idx) : ∃ t : Fin cfg1.N, (cfg1.win 7).flush t = true ∧ i ∈ ((cfg1.win 7).blk t).view.set := by
  have hi0 : (i 0).val < 100000 := (i 0).isLt
  have hi1 : (i 1).val < 8 := (i 1).isLt
  have hN : cfg1.N = 10 := N_1
  let t : Fin cfg1.N := ⟨(i 0).val / 10000, by omega⟩
  obtain ⟨-, -, -, -, -, -, -, -, -, -, -, -, e0, e1, -⟩ := idx_facts t
  have ht : t.val = (i 0).val / 10000 := rfl
  refine ⟨t, flush1_7 t, ?_⟩
  rw [mem_blk7]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 8 ≤ (i 1).val ∧ (i 1).val < win1_7.index t (1 : Fin 2) * 8 + 8; omega
theorem cover8 (i : S100000x8.Idx) : ∃ t : Fin cfg1.N, (cfg1.win 8).flush t = true ∧ i ∈ ((cfg1.win 8).blk t).view.set := by
  have hi0 : (i 0).val < 100000 := (i 0).isLt
  have hi1 : (i 1).val < 8 := (i 1).isLt
  have hN : cfg1.N = 10 := N_1
  let t : Fin cfg1.N := ⟨(i 0).val / 10000, by omega⟩
  obtain ⟨-, -, -, -, -, -, -, -, -, -, -, -, -, -, e0, e1⟩ := idx_facts t
  have ht : t.val = (i 0).val / 10000 := rfl
  refine ⟨t, flush1_8 t, ?_⟩
  rw [mem_blk8]
  intro a
  match a with
  | ⟨0, _⟩ => show win1_8.index t (0 : Fin 2) * 10000 ≤ (i 0).val ∧ (i 0).val < win1_8.index t (0 : Fin 2) * 10000 + 10000; omega
  | ⟨1, _⟩ => show win1_8.index t (1 : Fin 2) * 8 ≤ (i 1).val ∧ (i 1).val < win1_8.index t (1 : Fin 2) * 8 + 8; omega

/-- The three output arrays after the last point. -/
theorem arr6_eq : (dat1 (F := Ideal) V c).arrAt 6 cfg1.N = Gaff (V c main_v49) (V c main_arg6) (V c main_arg7) :=
  (dat1 V c).arrAt_eq_of_cover 6 (Gaff (V c main_v49) (V c main_arg6) (V c main_arg7)) (fun t _ => flushed6_eq V c t) cover6
theorem arr7_eq : (dat1 (F := Ideal) V c).arrAt 7 cfg1.N = Gaff (V c main_v49) (V c main_arg8) (V c main_arg9) :=
  (dat1 V c).arrAt_eq_of_cover 7 (Gaff (V c main_v49) (V c main_arg8) (V c main_arg9)) (fun t _ => flushed7_eq V c t) cover7
theorem arr8_eq : (dat1 (F := Ideal) V c).arrAt 8 cfg1.N = Glin (V c main_v49) (V c main_arg4) :=
  (dat1 V c).arrAt_eq_of_cover 8 (Glin (V c main_v49) (V c main_arg4)) (fun t _ => flushed8_eq V c t) cover8

/-- Entry (n, k) of the first output after the region: Σ_j h(n, j) · Wnb(j, k) + bnb(k). -/
theorem final6 (n : Fin 100000) (k : Fin 8) :
    (dat1 (F := Ideal) V c).arrAt 6 cfg1.N (ix2 n k) = Cert.Spec.f1 (V c main_v49) (V c main_arg6) (V c main_arg7) n k :=
  congrFun (arr6_eq V c) (ix2 n k)

/-- Entry (n, k) of the second output after the region: Σ_j h(n, j) · Wself(j, k) + bself(k). -/
theorem final7 (n : Fin 100000) (k : Fin 8) :
    (dat1 (F := Ideal) V c).arrAt 7 cfg1.N (ix2 n k) = Cert.Spec.f1 (V c main_v49) (V c main_arg8) (V c main_arg9) n k :=
  congrFun (arr7_eq V c) (ix2 n k)

/-- Entry (n, k) of the third output after the region: Σ_j h(n, j) · W1(j, k). -/
theorem final8 (n : Fin 100000) (k : Fin 8) :
    (dat1 (F := Ideal) V c).arrAt 8 cfg1.N (ix2 n k) = R1.prod (V c main_v49) (V c main_arg4) n k :=
  congrFun (arr8_eq V c) (ix2 n k)

end Cert.KernelIdeal.R1

end
-- ==== Proof.Region2.lean ====
/-
  The third region's result, entry by entry over the extended reals.

  The region walks the 1600000 edges in 20 blocks of 80000. For the edges of a block it joins the two 8-row arrays'
  columns into 16 rows, contracts them with the 16 weights, adds the bias, and applies the gate
  gate z = min 1 (max 0 (σ(max z 0) · 1.01 + 0)) · max z 0. This module reads that off: first the body's result at one
  column of a block (the contraction at an index is the sum over the 16 rows; the joined rows read the first array below
  row 8 and the second from row 8 on), then each block as the columns 80000 t … 80000 t + 79999 of the arrays, then the
  whole gate array, since the 20 blocks cover it.
-/
import proofs.«161898_j54245436949038_1_alg».proof.Proof.Gen.KernelIdeal.Frame
import proofs.«161898_j54245436949038_1_alg».proof.Proof.Spec
import proofs.«161898_j54245436949038_1_alg».proof.Proof.LibJoinedRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.R2

open Cert.KernelIdeal Cert.KernelIdeal.Gen Idealize.ShloMosaic Idealize.ShloMosaic.ValueIdx

/-! ## The body's result at an index -/

/-- The contraction of the 16 weights with the 16 joined rows. -/
abbrev D := dot_S16x1_S16x80000_S1x80000_0_0_1_1_n_n

theorem lhs_D_0 (i : S1x80000.Idx) (q : D.contr.Idx) : (D.lhsIdx i q 0).val = (q ⟨0, by decide⟩).val :=
  D.lhsIdx_val_of_single rfl i q

theorem rhs_D_0 (i : S1x80000.Idx) (q : D.contr.Idx) : (D.rhsIdx i q 0).val = (q ⟨0, by decide⟩).val :=
  D.rhsIdx_val_of_single rfl i q

theorem rhs_D_1 (i : S1x80000.Idx) (q : D.contr.Idx) : (D.rhsIdx i q 1).val = (i 1).val := by
  unfold DotDims.rhsIdx
  rw [dif_neg (show ¬(1 : Fin S16x80000.rank) ∈ D.rhsBatch by decide), dif_pos (show (1 : Fin S16x80000.rank) ∈ D.rhsNonContracting by decide)]
  rfl

/-- The product of the weight column with a 16-row array, contracting the rows of both, read at column y:
    the sum over the 16 rows of weight times entry. -/
theorem matmul_apply16 (w : FVec Ideal S16x1 .f32) (x : FVec Ideal S16x80000 .f32) (y : Fin 80000) :
    matmul D none w x (constant S1x80000 .f32 0x00000000#32) (ix2 (0 : Fin 1) y)
      = ∑ k : Fin 16, w (ix2 k (0 : Fin 1)) * x (ix2 k y) := by
  simp only [matmul]
  rw [Ideal.matmul_constant_zero_apply, ← Equiv.sum_comp (contrEquiv1 D 16 rfl rfl).symm]
  refine Finset.sum_congr rfl fun k _ => ?_
  have hk := contrEquiv1_symm_val D 16 rfl rfl k
  have el : D.lhsIdx (ix2 (0 : Fin 1) y) ((contrEquiv1 D 16 rfl rfl).symm k) = ix2 k (0 : Fin 1) := funext fun a => Fin.ext (by
    match a with
    | ⟨0, _⟩ => exact (lhs_D_0 _ _).trans hk
    | ⟨1, _⟩ => exact Nat.lt_one_iff.mp (D.lhsIdx _ _ _).isLt)
  have er : D.rhsIdx (ix2 (0 : Fin 1) y) ((contrEquiv1 D 16 rfl rfl).symm k) = ix2 k y := funext fun a => Fin.ext (by
    match a with
    | ⟨0, _⟩ => exact (rhs_D_0 _ _).trans hk
    | ⟨1, _⟩ => exact rhs_D_1 _ _)
  rw [el, er]

/-- The two 8-row blocks joined along the rows, read at row k and column y: the first block's row k below 8, the second
    block's row k - 8 from 8 on. -/
theorem join_apply (x0 x1 : Vec Ideal S8x80000 .f32) (k : Fin 16) (y : Fin 80000) :
    concatenate S16x80000 0 [⟨S8x80000, x0⟩, ⟨S8x80000, x1⟩] concatenates_S8x80000_S8x80000_S16x80000_d0 (ix2 k y)
      = Cert.Spec.cat16 (fun k' => x0 (ix2 k' y)) (fun k' => x1 (ix2 k' y)) k := by
  unfold Cert.Spec.cat16
  by_cases hk : k.val < 8
  · rw [dif_pos hk]
    exact Cert.LibJoinedRows.join_rows_left (E1 := 8) (E2 := 8) (T := 16) (C := 80000)
      concatenates_S8x80000_S8x80000_S16x80000_d0 x0 x1 ⟨k.val, hk⟩ k.isLt y
  · rw [dif_neg hk]
    have h8 : 8 + (k.val - 8) < 16 := by have := k.isLt; omega
    have e : k = ⟨8 + (k.val - 8), h8⟩ := Fin.ext (by show k.val = 8 + (k.val - 8); omega)
    refine (congrArg (fun k' : Fin 16 => concatenate S16x80000 0 [⟨S8x80000, x0⟩, ⟨S8x80000, x1⟩] concatenates_S8x80000_S8x80000_S16x80000_d0 (ix2 k' y)) e).trans ?_
    exact Cert.LibJoinedRows.join_rows_right (E1 := 8) (E2 := 8) (T := 16) (C := 80000)
      concatenates_S8x80000_S8x80000_S16x80000_d0 x0 x1 ⟨k.val - 8, by have := k.isLt; omega⟩ h8 y

/-- The logistic function of a vector at an index is the logistic function of the entry. -/
theorem logistic_apply {s : Shape} {φ : FTy} (a : FVec Ideal s φ) (i : s.Idx) : logistic a i = Ideal.logistic (a i) := rfl

/-- The one entry of a one-entry vector. -/
theorem extract_one (x3 : Vec Ideal S1 .f32) : extractAt ![0] x3 inpos_S1_p0 = x3 (ix1 (0 : Fin 1)) :=
  congrArg x3 (funext fun a => by match a with | ⟨0, _⟩ => rfl)

/-- THE BODY'S RESULT AT COLUMN y of its block: the gate of the logit, the logit the 16 weights against the 16 joined
    entries of column y plus the bias. -/
theorem pay_apply (x0 x1 : Vec Ideal S8x80000 .f32) (x2 : Vec Ideal S16x1 .f32) (x3 : Vec Ideal S1 .f32) (y : Fin 80000) :
    k2_pay1 (F := Ideal) x0 x1 x2 x3 (ix2 (0 : Fin 1) y)
      = Cert.Spec.gate ((∑ k : Fin 16, x2 (ix2 k (0 : Fin 1)) * Cert.Spec.cat16 (fun k' => x0 (ix2 k' y)) (fun k' => x1 (ix2 k' y)) k)
          + x3 (ix1 (0 : Fin 1))) := by
  unfold k2_pay1
  rw [shapeCast_self (s := S8x80000) x0, shapeCast_self (s := S8x80000) x1]
  simp only [mulf_apply, minimumf_apply, maximumf_apply, addf_apply, broadcast_apply, logistic_apply, matmul_apply16, join_apply, extract_one]
  have hs : (∑ k : Fin 16, x2 (ix2 k (0 : Fin 1)) * concatenate S16x80000 0 [⟨S8x80000, x0⟩, ⟨S8x80000, x1⟩] concatenates_S8x80000_S8x80000_S16x80000_d0 (ix2 k y))
      = ∑ k : Fin 16, x2 (ix2 k (0 : Fin 1)) * Cert.Spec.cat16 (fun k' => x0 (ix2 k' y)) (fun k' => x1 (ix2 k' y)) k :=
    Finset.sum_congr rfl fun k _ => by rw [join_apply x0 x1 k y]
  rw [hs, extract_one x3]
  rfl

/-! ## From the blocks to the array -/

open Idealize.ShloMosaic.TcCoe Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The logit of edge e: the 16 weights w against the edge's 16 joined entries (column e of the two 8-row arrays), plus
    the bias. -/
def logit (w : S16x1.Idx → EReal) (b : S1.Idx → EReal) (ra rb : S8x1600000.Idx → EReal) (e : Fin 1600000) : EReal :=
  (∑ k : Fin 16, w (ix2 k (0 : Fin 1)) * Cert.Spec.cat16 (fun k' => ra (ix2 k' e)) (fun k' => rb (ix2 k' e)) k)
    + b (ix1 (0 : Fin 1))

/-- What the gate array ends holding: at edge e the gate of its logit, from the arrays the region finds. -/
def G (c : Dev nD) : S1x1600000.Idx → EReal :=
  fun i => Cert.Spec.gate (logit (V c main_arg10) (V c main_arg11) (V c main_v59) (V c main_v66) (i 1))

/-- The block index maps, decided over the 20 points: the two row arrays and the output move together, block t at
    point t; the weights and the bias are whole. -/
theorem idx_facts : ∀ t : Fin cfg2.N, win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = t.val :=
  (by decide +kernel : ∀ t : Fin grid2.N, _)

/-- The first row array's block at point t is its columns 80000 t … 80000 t + 79999. -/
theorem blk0_apply (c : Dev nD) (t : Fin cfg2.N) (k : Fin 8) (y : Fin 80000) (h : 80000 * t.val + y.val < 1600000) :
    (iblk2 V c 0 t : Vec Ideal S8x80000 .f32) (ix2 k y) = (V c main_v59 : S8x1600000.Idx → EReal) (ix2 k ⟨80000 * t.val + y.val, h⟩) := by
  obtain ⟨e0, e1, -⟩ := idx_facts t
  unfold iblk2
  rw [View.read_apply]
  show V c main_v59 _ = V c main_v59 _
  congr 1
  funext a
  apply Fin.ext
  match a with
  | ⟨0, _⟩ => show win2_0.index t (0 : Fin 2) * 8 + 1 * k.val = k.val; omega
  | ⟨1, _⟩ => show win2_0.index t (1 : Fin 2) * 80000 + 1 * y.val = 80000 * t.val + y.val; omega

/-- The second row array's block at point t is its columns 80000 t … 80000 t + 79999. -/
theorem blk1_apply (c : Dev nD) (t : Fin cfg2.N) (k : Fin 8) (y : Fin 80000) (h : 80000 * t.val + y.val < 1600000) :
    (iblk2 V c 1 t : Vec Ideal S8x80000 .f32) (ix2 k y) = (V c main_v66 : S8x1600000.Idx → EReal) (ix2 k ⟨80000 * t.val + y.val, h⟩) := by
  obtain ⟨-, -, e0, e1, -⟩ := idx_facts t
  unfold iblk2
  rw [View.read_apply]
  show V c main_v66 _ = V c main_v66 _
  congr 1
  funext a
  apply Fin.ext
  match a with
  | ⟨0, _⟩ => show win2_1.index t (0 : Fin 2) * 8 + 1 * k.val = k.val; omega
  | ⟨1, _⟩ => show win2_1.index t (1 : Fin 2) * 80000 + 1 * y.val = 80000 * t.val + y.val; omega

/-- The weights' block at every point is the whole weight column. -/
theorem blk2_apply (c : Dev nD) (t : Fin cfg2.N) (k : Fin 16) :
    (iblk2 V c 2 t : Vec Ideal S16x1 .f32) (ix2 k (0 : Fin 1)) = (V c main_arg10 : S16x1.Idx → EReal) (ix2 k (0 : Fin 1)) := by
  obtain ⟨-, -, -, -, e0, e1, -⟩ := idx_facts t
  unfold iblk2
  rw [View.read_apply]
  show V c main_arg10 _ = V c main_arg10 _
  congr 1
  funext a
  apply Fin.ext
  match a with
  | ⟨0, _⟩ => show win2_2.index t (0 : Fin 2) * 16 + 1 * k.val = k.val; omega
  | ⟨1, _⟩ => show win2_2.index t (1 : Fin 2) * 1 + 1 * 0 = 0; omega

/-- The bias's block at every point is the bias. -/
theorem blk3_apply (c : Dev nD) (t : Fin cfg2.N) :
    (iblk2 V c 3 t : Vec Ideal S1 .f32) (ix1 (0 : Fin 1)) = (V c main_arg11 : S1.Idx → EReal) (ix1 (0 : Fin 1)) := by
  obtain ⟨-, -, -, -, -, -, e0, -⟩ := idx_facts t
  unfold iblk2
  rw [View.read_apply]
  show V c main_arg11 _ = V c main_arg11 _
  congr 1
  funext a
  apply Fin.ext
  match a with
  | ⟨0, _⟩ => show win2_3.index t (0 : Fin 1) * 1 + 1 * 0 = 0; omega

/-- WHAT POINT t WRITES BACK is block t of G. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S8x80000) hz, View.ld_unit_zero (S := S16x1) hz, View.ld_unit_zero (S := S1) hz1]
  obtain ⟨-, -, -, -, -, -, -, e0, e1⟩ := idx_facts t
  have hN : cfg2.N = 20 := N_2
  have ht : t.val < cfg2.N := t.isLt
  funext j
  obtain ⟨p, y, rfl⟩ : ∃ (p : Fin 1) (y : Fin 80000), j = ix2 p y := ⟨j 0, j 1, eq_ix2 j⟩
  obtain rfl : p = 0 := Subsingleton.elim _ _
  have hy : 80000 * t.val + y.val < 1600000 := by have := y.isLt; omega
  show k2_pay1 (F := Ideal) (iblk2 V c 0 t) (iblk2 V c 1 t) (iblk2 V c 2 t) (iblk2 V c 3 t) (ix2 (0 : Fin 1) y)
    = G V c (((cfg2.win 4).blk t).view.emb (ix2 (0 : Fin 1) y))
  rw [pay_apply]
  have hemb : ((cfg2.win 4).blk t).view.emb (ix2 (0 : Fin 1) y) = ix2 (0 : Fin 1) (⟨80000 * t.val + y.val, hy⟩ : Fin 1600000) := by
    funext a
    apply Fin.ext
    match a with
    | ⟨0, _⟩ => show win2_4.index t (0 : Fin 2) * 1 + 1 * 0 = 0; omega
    | ⟨1, _⟩ => show win2_4.index t (1 : Fin 2) * 80000 + 1 * y.val = 80000 * t.val + y.val; omega
  rw [hemb]
  show _ = Cert.Spec.gate (logit (V c main_arg10) (V c main_arg11) (V c main_v59) (V c main_v66) ⟨80000 * t.val + y.val, hy⟩)
  unfold logit
  have h0 : (fun k' : Fin 8 => (iblk2 V c 0 t : Vec Ideal S8x80000 .f32) (ix2 k' y))
      = fun k' : Fin 8 => (V c main_v59 : S8x1600000.Idx → EReal) (ix2 k' ⟨80000 * t.val + y.val, hy⟩) :=
    funext fun k' => blk0_apply V c t k' y hy
  have h1 : (fun k' : Fin 8 => (iblk2 V c 1 t : Vec Ideal S8x80000 .f32) (ix2 k' y))
      = fun k' : Fin 8 => (V c main_v66 : S8x1600000.Idx → EReal) (ix2 k' ⟨80000 * t.val + y.val, hy⟩) :=
    funext fun k' => blk1_apply V c t k' y hy
  rw [h0, h1, blk3_apply V c t]
  exact congrArg Cert.Spec.gate (congrArg (· + (V c main_arg11 : S1.Idx → EReal) (ix1 (0 : Fin 1)))
    (Finset.sum_congr rfl fun k _ => by rw [blk2_apply V c t k]))

/-- An index of the gate array is in point t's block iff each coordinate is in the block's range on its axis. -/
theorem mem_blk (t : Fin cfg2.N) (i : S1x1600000.Idx) :
    i ∈ ((cfg2.win 4).blk t).view.set ↔ ∀ a : Fin 2, win2_4.index t a * S1x80000.size a ≤ (i a).val
      ∧ (i a).val < win2_4.index t a * S1x80000.size a + S1x80000.size a := by
  show i ∈ ((View.whole main_v67).slice (win2_4.rect t)).set ↔ _
  rw [View.set_slice_whole, Rect.mem_set_unit]
  exact Iff.rfl

/-- Every edge is in some point's block: edge e in block e / 80000. -/
theorem cover (i : S1x1600000.Idx) :
    ∃ t : Fin cfg2.N, (cfg2.win 4).flush t = true ∧ i ∈ ((cfg2.win 4).blk t).view.set := by
  have hi0 : (i 0).val < 1 := (i 0).isLt
  have hi1 : (i 1).val < 1600000 := (i 1).isLt
  have hN : cfg2.N = 20 := N_2
  have hq : (i 1).val / 80000 < cfg2.N := by rw [hN]; omega
  obtain ⟨-, -, -, -, -, -, -, e0, e1⟩ := idx_facts ⟨(i 1).val / 80000, hq⟩
  have e1' : win2_4.index ⟨(i 1).val / 80000, hq⟩ (1 : Fin 2) = (i 1).val / 80000 := e1
  refine ⟨⟨(i 1).val / 80000, hq⟩, flush2_4 _, ?_⟩
  rw [mem_blk]
  intro a
  match a with
  | ⟨0, _⟩ =>
    show win2_4.index ⟨(i 1).val / 80000, hq⟩ (0 : Fin 2) * 1 ≤ (i 0).val
      ∧ (i 0).val < win2_4.index ⟨(i 1).val / 80000, hq⟩ (0 : Fin 2) * 1 + 1
    omega
  | ⟨1, _⟩ =>
    show win2_4.index ⟨(i 1).val / 80000, hq⟩ (1 : Fin 2) * 80000 ≤ (i 1).val
      ∧ (i 1).val < win2_4.index ⟨(i 1).val / 80000, hq⟩ (1 : Fin 2) * 80000 + 80000
    omega

/-- THE GATE ARRAY after the region is G. -/
theorem arr_eq (c : Dev nD) : (dat2 (F := Ideal) V c).arrAt 4 cfg2.N = G V c :=
  (dat2 (F := Ideal) V c).arrAt_eq_of_cover 4 (G V c) (fun t _ => flushed_eq V c t) cover

/-- THE GATE ARRAY AT EDGE e, for any names of the four arrays the region finds. -/
theorem final_of (c : Dev nD) (e : Fin 1600000) (w : S16x1.Idx → EReal) (b : S1.Idx → EReal) (ra rb : S8x1600000.Idx → EReal)
    (hw : V c main_arg10 = w) (hb : V c main_arg11 = b) (hra : V c main_v59 = ra) (hrb : V c main_v66 = rb) :
    (dat2 (F := Ideal) V c).arrAt 4 cfg2.N (ix2 (0 : Fin 1) e)
      = Cert.Spec.gate ((∑ k : Fin 16, w (ix2 k (0 : Fin 1)) * Cert.Spec.cat16 (fun k' => ra (ix2 k' e)) (fun k' => rb (ix2 k' e)) k)
          + b (ix1 (0 : Fin 1))) := by
  subst hw hb hra hrb
  exact congrFun (arr_eq V c) (ix2 (0 : Fin 1) e)

/-- THE GATE ARRAY AT EDGE e. -/
theorem final (c : Dev nD) (e : Fin 1600000) :
    (dat2 (F := Ideal) V c).arrAt 4 cfg2.N (ix2 (0 : Fin 1) e)
      = Cert.Spec.gate (logit (V c main_arg10) (V c main_arg11) (V c main_v59) (V c main_v66) e) :=
  congrFun (arr_eq V c) (ix2 (0 : Fin 1) e)

end Cert.KernelIdeal.R2

end
-- ==== Proof.KEdge.lean ====
/-
  The kernel program's edge weights, edge by edge.

  The third region's output at edge e is the gate of the edge's logit (the third region's value), the logit's sixteen
  features are the entries (n, k) of the second region's first two outputs at the edge's two endpoint nodes (the
  transposes and column gathers between the regions), and those outputs are the two affine maps of the hidden rows
  (the second region's value).
-/
import proofs.«161898_j54245436949038_1_alg».proof.Proof.KMid
import proofs.«161898_j54245436949038_1_alg».proof.Proof.KWalk
import proofs.«161898_j54245436949038_1_alg».proof.Proof.Gen.ReferenceIdeal
import Idealize.ShloMosaic.Lib.ValueLayout
import proofs.«161898_j54245436949038_1_alg».proof.Proof.Region1
import proofs.«161898_j54245436949038_1_alg».proof.Proof.Region2

set_option maxRecDepth 16384

noncomputable section

namespace Cert.KernelIdeal.KEdge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The second region's first output at (n, k): the first affine map of node n's hidden row. -/
theorem f1_nb (c : Dev nD) (n : Fin 100000) (k : Fin 8) :
    W6 m ρ c (Proc.devRef .tc main_v50_0) (ix2 n k)
      = Cert.Spec.f1 (W5 m ρ c (Proc.devRef .tc main_v49)) (m ((c : Thread nD τ).loc main_arg6)) (m ((c : Thread nD τ).loc main_arg7)) n k := by
  rw [show W6 m ρ c (Proc.devRef .tc main_v50_0) = (dat1 (V5 m ρ) c).arrAt 6 cfg1.N from W6_arr m ρ c 6]
  rw [Cert.KernelIdeal.R1.final6 (V5 m ρ) c n k]
  rw [show V5 m ρ c main_arg6 = m ((c : Thread nD τ).loc main_arg6) from Cert.KernelIdeal.KWalk.W5_arg6 m ρ c,
    show V5 m ρ c main_arg7 = m ((c : Thread nD τ).loc main_arg7) from Cert.KernelIdeal.KWalk.W5_arg7 m ρ c]

/-- The second region's second output at (n, k): the second affine map of node n's hidden row. -/
theorem f1_self (c : Dev nD) (n : Fin 100000) (k : Fin 8) :
    W6 m ρ c (Proc.devRef .tc main_v50_1) (ix2 n k)
      = Cert.Spec.f1 (W5 m ρ c (Proc.devRef .tc main_v49)) (m ((c : Thread nD τ).loc main_arg8)) (m ((c : Thread nD τ).loc main_arg9)) n k := by
  rw [show W6 m ρ c (Proc.devRef .tc main_v50_1) = (dat1 (V5 m ρ) c).arrAt 7 cfg1.N from W6_arr m ρ c 7]
  rw [Cert.KernelIdeal.R1.final7 (V5 m ρ) c n k]
  rw [show V5 m ρ c main_arg8 = m ((c : Thread nD τ).loc main_arg8) from Cert.KernelIdeal.KWalk.W5_arg8 m ρ c,
    show V5 m ρ c main_arg9 = m ((c : Thread nD τ).loc main_arg9) from Cert.KernelIdeal.KWalk.W5_arg9 m ρ c]

/-- The sources' and the targets' lists wherever they are read. -/
theorem row_W6 (c : Dev nD) : W6 m ρ c (Proc.devRef .tc main_v1) = Cert.KernelIdeal.KWalk.edgeRow0 (m ((c : Thread nD τ).loc main_arg1)) :=
  (Cert.KernelIdeal.KWalk.W6_v1_W2 m ρ c).trans ((Cert.KernelIdeal.KWalk.W2_v1_W1 m ρ c).trans (Cert.KernelIdeal.KWalk.W1_v1 m ρ c))
theorem col_W6 (c : Dev nD) : W6 m ρ c (Proc.devRef .tc main_v3) = Cert.KernelIdeal.KWalk.edgeRow1 (m ((c : Thread nD τ).loc main_arg1)) :=
  (Cert.KernelIdeal.KWalk.W6_v3_W2 m ρ c).trans ((Cert.KernelIdeal.KWalk.W2_v3_W1 m ρ c).trans (Cert.KernelIdeal.KWalk.W1_v3 m ρ c))

/-- THE KERNEL'S EDGE WEIGHTS: the third region's output, flattened, at edge e. -/
theorem mw_apply (c : Dev nD) (e : Fin 1600000) :
    shapeCast Cert.ReferenceIdeal.S1600000 (W8 m ρ c (Proc.devRef .tc main_v67)) Cert.ReferenceIdeal.Gen.shapeCasts_S1x1600000_S1600000 (ix1 e)
      = Cert.Spec.mw (W5 m ρ c (Proc.devRef .tc main_v49))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (Cert.KernelIdeal.KWalk.edgeRow0 (m ((c : Thread nD τ).loc main_arg1)))
          (Cert.KernelIdeal.KWalk.edgeRow1 (m ((c : Thread nD τ).loc main_arg1))) e := by
  refine (shapeCast_1a_a_apply (a := 1600000) (W8 m ρ c (Proc.devRef .tc main_v67)) _ e).trans ?_
  rw [show W8 m ρ c (Proc.devRef .tc main_v67) = (dat2 (V7 m ρ) c).arrAt 4 cfg2.N from W8_arr m ρ c 4]
  rw [Cert.KernelIdeal.R2.final_of (V7 m ρ) c e _ _ _ _ (Cert.KernelIdeal.KWalk.W7_arg10 m ρ c) (Cert.KernelIdeal.KWalk.W7_arg11 m ρ c)
    (Cert.KernelIdeal.KMid.v59_eq m ρ c) (Cert.KernelIdeal.KMid.v66_eq m ρ c)]
  unfold Cert.Spec.mw
  refine congrArg Cert.Spec.gate ?_
  refine congrArg (· + m ((c : Thread nD τ).loc main_arg11) (ix1 (0 : Fin 1))) ?_
  refine Finset.sum_congr rfl fun k _ => ?_
  rw [mul_comm]
  refine congrArg (· * m ((c : Thread nD τ).loc main_arg10) (ix2 k (0 : Fin 1))) ?_
  refine congrArg₂ (fun a b => Cert.Spec.cat16 a b k) ?_ ?_
  · funext k'
    rw [Cert.KernelIdeal.KMid.edgeRows_apply, f1_nb, row_W6]
  · funext k'
    rw [Cert.KernelIdeal.KMid.edgeRows_apply, f1_self, col_W6]

end Cert.KernelIdeal.KEdge

end
-- ==== Proof.Region0.lean ====
/-
  The first region's output array, entry by entry.

  The region walks the 100000 rows of x in 20 blocks of 5000 rows.  At block t it multiplies rows
  5000 t … 5000 t + 4999 of x (all 512 columns) by the whole 512 × 32 matrix W0 and writes the 5000 × 32 result
  over the same rows of the output.  Rounding the two operands to a narrower format changes nothing over the
  extended reals, and the accumulator starts at zero, so entry (p, q) of the block's result is
  Σ_k x(5000 t + p, k) · W0(k, q).  Every row n lies in exactly the block n / 5000, so after the last block
  entry (n, j) of the output is Σ_k x(n, k) · W0(k, j).
-/
import proofs.«161898_j54245436949038_1_alg».proof.Proof.Gen.KernelIdeal.Frame
import proofs.«161898_j54245436949038_1_alg».proof.Proof.Spec
import proofs.«161898_j54245436949038_1_alg».proof.Proof.LibPlainDotFormats
import Idealize.ShloMosaic.Lib.Pipeline.Value

set_option maxRecDepth 16384

noncomputable section

namespace Cert.KernelIdeal.R0

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The zero offset, as a constant function. -/
theorem hz : (![0, 0] : Fin 2 → Nat) = fun _ => 0 := funext fun a => by fin_cases a <;> rfl

/-- The product of the two arrays, entry by entry. -/
def G (x : S100000x512.Idx → EReal) (w : S512x32.Idx → EReal) : S100000x32.Idx → EReal :=
  fun i => ∑ k : Fin 512, x (ix2 (i 0) k) * w (ix2 k (i 1))

/-- Entry (n, j) of the product of a 100000 × 512 array with a 512 × 32 array. -/
def prod (l : S100000x512.Idx → EReal) (r : S512x32.Idx → EReal) (n : Fin 100000) (j : Fin 32) : EReal :=
  ∑ k : Fin 512, l (ix2 n k) * r (ix2 k j)

/-- The contraction's dimension numbers are those of a plain matrix product. -/
theorem plain0 : Cert.LibPlainDot.Plain dot_S5000x512_S512x32_S5000x32_1_0_0_1_n_n := ⟨rfl, rfl, rfl, rfl, rfl, rfl⟩

/-- Entry (p, q) of what the body stores: the row of the first block against the column of the second. -/
theorem pay_apply (x0 : Vec Ideal S5000x512 .f32) (x1 : Vec Ideal S512x32 .f32) (p : Fin 5000) (q : Fin 32) :
    k0_pay1 x0 x1 (ix2 p q) = ∑ k : Fin 512, x0 (ix2 p k) * x1 (ix2 k q) := by
  unfold k0_pay1
  refine (plain0.matmul_zero_apply_formats none _ _ p q).trans ?_
  rfl

/-- The block indices at point t, decided over the 20 points: x and the output move down with t, W0 stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is a row of the array. -/
theorem row_lt (t : Fin cfg0.N) (p : Fin 5000) : t.val * 5000 + p.val < 100000 := by
  have h1 := t.isLt
  have h2 : cfg0.N = 20 := N_0
  omega

/-- The array row under row `p` of block `t`. -/
def row (t : Fin cfg0.N) (p : Fin 5000) : Fin 100000 := ⟨t.val * 5000 + p.val, row_lt t p⟩

/-- Where entry (p, k) of x's block t sits in x. -/
theorem emb0 (t : Fin cfg0.N) (p : Fin 5000) (k : Fin 512) :
    ((cfg0.win 0).blk t).view.emb (ix2 p k : S5000x512.Idx) = (ix2 (row t p) k : S100000x512.Idx) := by
  obtain ⟨e0, e1, e2, e3, e4, e5⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 512 + 1 * k.val = k.val; omega

/-- W0's block is W0 itself. -/
theorem emb1 (t : Fin cfg0.N) (k : Fin 512) (q : Fin 32) :
    ((cfg0.win 1).blk t).view.emb (ix2 k q : S512x32.Idx) = (ix2 k q : S512x32.Idx) := by
  obtain ⟨e0, e1, e2, e3, e4, e5⟩ := idx_facts t
  funext a; apply Fin.ext
  match a with
  | ⟨0, _⟩ => show win0_1.index t (0 : Fin 2) * 512 + 1 * k.val = k.val; omega
  | ⟨1, _⟩ => show win0_1.index t (1 : Fin 2) * 32 + 1 * q.val = q.val; omega

/-- Where entry (p, q) of the output's block t sits in the output. -/
theorem emb2 (t : Fin cfg0.N) (p : Fin 5000) (q : Fin 32) :
    ((cfg0.win 2).blk t).view.emb (ix2 p q : S5000x32.Idx) = (ix2 (row t p) q : S100000x32.Idx) := by
  obtain ⟨e0, e1, e2, e3, e4, e5⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 32 + 1 * q.val = q.val; omega

/-- x's block t, read at (p, k). -/
theorem iblk0_0_apply (t : Fin cfg0.N) (p : Fin 5000) (k : Fin 512) :
    iblk0 (F := Ideal) V c 0 t (ix2 p k) = V c main_arg0 (ix2 (row t p) k) := by
  show V c main_arg0 (((cfg0.win 0).blk t).view.emb (ix2 p k : S5000x512.Idx)) = _
  rw [emb0]

/-- W0's block, read at (k, q). -/
theorem iblk0_1_apply (t : Fin cfg0.N) (k : Fin 512) (q : Fin 32) :
    iblk0 (F := Ideal) V c 1 t (ix2 k q) = V c main_arg2 (ix2 k q) := by
  show V c main_arg2 (((cfg0.win 1).blk t).view.emb (ix2 k q : S512x32.Idx)) = _
  rw [emb1]

/-- What point t writes back is block t of the product array. -/
theorem flushed_eq (t : Fin cfg0.N) :
    (dat0 (F := Ideal) V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x32) hz]
  funext j
  obtain ⟨p, q, rfl⟩ : ∃ (p : Fin 5000) (q : Fin 32), j = ix2 p q := ⟨j 0, j 1, eq_ix2 j⟩
  show k0_pay1 (iblk0 V c 0 t) (iblk0 V c 1 t) (ix2 p q)
    = G (V c main_arg0) (V c main_arg2) (((cfg0.win 2).blk t).view.emb (ix2 p q : S5000x32.Idx))
  rw [pay_apply, emb2]
  show _ = ∑ k : Fin 512, @HMul.hMul EReal EReal EReal instHMul (V c main_arg0 (ix2 (row t p) k)) (V c main_arg2 (ix2 k q))
  refine Finset.sum_congr rfl fun k _ => ?_
  rw [iblk0_0_apply, iblk0_1_apply]

/-- An index is in block t iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v4).slice (win0_2.rect t)).set ↔ _
  rw [View.set_slice_whole, Rect.mem_set_unit]
  exact Iff.rfl

/-- Row n lies in block n / 5000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  let t : Fin cfg0.N := ⟨(i 0).val / 5000, by omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- The output array after the last point is the product array. -/
theorem arr_eq : (dat0 (F := Ideal) V c).arrAt 2 cfg0.N = G (V c main_arg0) (V c main_arg2) :=
  (dat0 V c).arrAt_eq_of_cover 2 (G (V c main_arg0) (V c main_arg2)) (fun t _ => flushed_eq V c t) cover

/-- Entry (n, j) of the output after the region: Σ_k x(n, k) · W0(k, j). -/
theorem final (n : Fin 100000) (j : Fin 32) :
    (dat0 (F := Ideal) V c).arrAt 2 cfg0.N (ix2 n j) = R0.prod (V c main_arg0) (V c main_arg2) n j :=
  congrFun (arr_eq V c) (ix2 n j)

end Cert.KernelIdeal.R0

end
-- ==== Proof.LibGatherRows.lean ====
/-
  A gather of whole rows (and of single entries of a vector) by a one-column list of row numbers, read at an entry.

  `x[rows]` for an operand `x : [R, C]` and `E` row numbers (an integer array of shape `[E, 1]`) takes, for each `e`,
  the row whose number the list's entry `e` names: the number is read as a signed word and CLAMPED into `[0, R - 1]`
  (a negative number reads row `0`, a number past the end reads the last row).  So entry `(e, c)` of the result is
  `x (clampRow (rows e), c)`.  The same list applied to a vector `x : [R]` gives `x (clampRow (rows e))` — with the SAME
  row, which is what lets a table and a vector gathered by one list be compared entry by entry.  Generic in `R`,
  `C`, `E`, the word width and the entry type.
-/
import Idealize.ShloMosaic.PureOps
import Idealize.ShloMosaic.Lib.ValueIdx

noncomputable section

namespace Cert.LibGatherRows

open Idealize.ShloMosaic Idealize.ShloMosaic.ValueIdx

/-- Entry `e` of a one-column list. -/
abbrev rowIdx {E : Nat} (e : Fin E) : (⟨2, ![E, 1]⟩ : Shape).Idx := ix2 e ⟨0, Nat.one_pos⟩

/-- The row a word names in a table of `R` rows: its signed value clamped into `[0, R - 1]`. -/
def clampRow (R : Nat) (hR : 0 < R) {w : Nat} (b : BitVec w) : Fin R := ⟨min b.toInt.toNat (R - 1), by omega⟩

/-- A word whose signed value is a row number names that row. -/
theorem clampRow_of_toInt {R : Nat} (hR : 0 < R) {w : Nat} (b : BitVec w) (n : Fin R) (h : b.toInt = (n.val : Int)) :
    clampRow R hR b = n := by
  refine Fin.ext ?_
  show min b.toInt.toNat (R - 1) = n.val
  have := n.isLt
  rw [h]; simp only [Int.toNat_natCast]; omega

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide

section Rows
variable {α : Type} {R C E w : Nat}
  (wf : GatherDims.WF ⟨2, ![R, C]⟩ ⟨2, ![E, 1]⟩ ⟨2, ![E, C]⟩ [1] [0] [] [0] [] 1 ![1, C])

/-- The dimension numbers of `x[rows]` for a table: result axis 1 runs over the operand's columns, the operand's row
    axis is collapsed and named by the one-entry index vector. -/
abbrev rowGatherDims (R C E : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the clamped row the list's entry `e` names, column `c`. -/
theorem gather_rows_apply (hR : 0 < R) (x : (⟨2, ![R, C]⟩ : Shape).Idx → α) (idx : IVec ⟨2, ![E, 1]⟩ w) (e : Fin E) (c : Fin C) :
    Host.gather (rowGatherDims R C E wf) x idx (ix2 e c) = x (ix2 (clampRow R hR (idx (rowIdx e))) c) := by
  unfold Host.gather
  congr 1
  funext a
  refine Fin.ext ?_
  show (rowGatherDims R C E wf).start (ix2 e c) idx a + (rowGatherDims R C E wf).batchCoord (ix2 e c) a
    + (rowGatherDims R C E wf).offCoord (ix2 e c) a = _
  rw [GatherDims.batchCoord_eq_zero _ _ _ List.not_mem_nil]
  rcases axis_two a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C E wf).startIndexMap from List.mem_singleton.mpr rfl)]
    have hsi : (rowGatherDims R C E wf).siIdx (ix2 e c) ⟨List.idxOf (0 : Fin 2) (rowGatherDims R C E wf).startIndexMap,
        List.idxOf_lt_length_iff.2 (List.mem_singleton.mpr rfl)⟩ = rowIdx e := by
      funext b; refine Fin.ext ?_
      rcases axis_two b with rfl | rfl
      · rfl
      · rfl
    rw [hsi]
    rfl
  · have hs : (rowGatherDims R C E wf).start (ix2 e c) idx 1 = 0 := by
      unfold GatherDims.start
      rw [dif_neg (show ¬ ((1 : Fin 2) ∈ (rowGatherDims R C E wf).startIndexMap) from one_not_mem_zero)]
    rw [hs]
    simp only [Nat.add_zero, Nat.zero_add]
    unfold GatherDims.offCoord
    rw [dif_pos ((GatherDims.mem_sKept _ _).mpr ⟨one_not_mem_zero, List.not_mem_nil⟩)]
    rfl

/-- The same for the host operation as a program prints it, whose dimension numbers are these. -/
theorem host_gather_rows_apply (hR : 0 < R) (d : GatherDims ⟨2, ![R, C]⟩ ⟨2, ![E, 1]⟩ ⟨2, ![E, C]⟩)
    (hd : d = rowGatherDims R C E wf) (x : (⟨2, ![R, C]⟩ : Shape).Idx → α) (idx : IVec ⟨2, ![E, 1]⟩ w) (e : Fin E) (c : Fin C) :
    Host.gather d x idx (ix2 e c) = x (ix2 (clampRow R hR (idx (rowIdx e))) c) := by
  subst hd
  exact gather_rows_apply wf hR x idx e c

end Rows

section Vec
variable {α : Type} {R E w : Nat}
  (wf : GatherDims.WF ⟨1, ![R]⟩ ⟨2, ![E, 1]⟩ ⟨1, ![E]⟩ [] [0] [] [0] [] 1 ![1])

/-- The dimension numbers of `x[rows]` for a vector: no offset axis, the operand's one axis collapsed and named by the
    one-entry index vector. -/
abbrev vecGatherDims (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped entry the list's entry `e` names. -/
theorem gather_vec_apply (hR : 0 < R) (x : (⟨1, ![R]⟩ : Shape).Idx → α) (idx : IVec ⟨2, ![E, 1]⟩ w) (e : Fin E) :
    Host.gather (vecGatherDims R E wf) x idx (ix1 e) = x (ix1 (clampRow R hR (idx (rowIdx e)))) := by
  unfold Host.gather
  congr 1
  funext a
  obtain rfl : a = 0 := Subsingleton.elim _ _
  refine Fin.ext ?_
  show (vecGatherDims R E wf).start (ix1 e) idx 0 + (vecGatherDims R E wf).batchCoord (ix1 e) 0
    + (vecGatherDims R E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims R E wf).startIndexMap from List.mem_singleton.mpr rfl)]
  have hsi : (vecGatherDims R E wf).siIdx (ix1 e) ⟨List.idxOf (0 : Fin 1) (vecGatherDims R E wf).startIndexMap,
      List.idxOf_lt_length_iff.2 (List.mem_singleton.mpr rfl)⟩ = rowIdx e := by
    funext b; refine Fin.ext ?_
    rcases axis_two b with rfl | rfl
    · rfl
    · rfl
  rw [hsi]
  rfl

/-- The same for the host operation as a program prints it, whose dimension numbers are these. -/
theorem host_gather_vec_apply (hR : 0 < R) (d : GatherDims ⟨1, ![R]⟩ ⟨2, ![E, 1]⟩ ⟨1, ![E]⟩)
    (hd : d = vecGatherDims R E wf) (x : (⟨1, ![R]⟩ : Shape).Idx → α) (idx : IVec ⟨2, ![E, 1]⟩ w) (e : Fin E) :
    Host.gather d x idx (ix1 e) = x (ix1 (clampRow R hR (idx (rowIdx e)))) := by
  subst hd
  exact gather_vec_apply wf hR x idx e

end Vec

end Cert.LibGatherRows

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.RefEdge.lean ====
/-
  The reference's weight of an edge, read at the edge.

  The reference takes, for every edge e, the hidden rows of the two nodes its endpoint words name (a negative word w
  standing for w + 100000, the result clamped into [0, 99999]), sends the source's row through one affine map and the
  target's through another (eight numbers each), joins the sixteen numbers, takes their inner product with a 16-vector
  plus a bias (the edge's logit), and gates the logit: the rectified logit times the logistic of it stretched by 1.01,
  moved by 0.0 and clipped to [0, 1].  Entry e of the result is the specification's weight of edge e, for any hidden
  rows, any endpoint words and any parameters.  The stages are read one at a time, each at the entry the next one asks
  for: the endpoint's node; the gathered row; the affine map; the joined features; the logit; the gate.
-/
import proofs.«161898_j54245436949038_1_alg».proof.Proof.RefRead
import proofs.«161898_j54245436949038_1_alg».proof.Proof.Spec
import proofs.«161898_j54245436949038_1_alg».proof.Proof.LibGatherRows
import proofs.«161898_j54245436949038_1_alg».proof.Proof.LibConcatCols
import Idealize.ShloMosaic.PureOps.Ideal
import Idealize.ShloMosaic.PureOps.Ideal.Laws
import Idealize.ShloMosaic.Lib.ValueIdx

noncomputable section

open scoped BigOperators

namespace Cert.RefEdge

open Cert.ReferenceIdeal Cert.ReferenceIdeal.ReadP Idealize.ShloMosaic Idealize.ShloMosaic.ValueIdx

variable (x0 : (⟨S100000x512, .f32⟩ : BufTy).Contents (Elt Ideal)) (x1 : (⟨S2x1600000, .i32⟩ : BufTy).Contents (Elt Ideal))
  (x2 : (⟨S512x32, .f32⟩ : BufTy).Contents (Elt Ideal)) (x3 : (⟨S32, .f32⟩ : BufTy).Contents (Elt Ideal))
  (x6 : (⟨S32x8, .f32⟩ : BufTy).Contents (Elt Ideal)) (x7 : (⟨S8, .f32⟩ : BufTy).Contents (Elt Ideal))
  (x8 : (⟨S32x8, .f32⟩ : BufTy).Contents (Elt Ideal)) (x9 : (⟨S8, .f32⟩ : BufTy).Contents (Elt Ideal))
  (x10 : (⟨S16x1, .f32⟩ : BufTy).Contents (Elt Ideal)) (x11 : (⟨S1, .f32⟩ : BufTy).Contents (Elt Ideal))

/-! ## The node an edge's endpoint word names -/

/-- The source word of edge e after the wrap of a negative word. -/
theorem v54_at (e : Fin 1600000) :
    val_main_v54 (F := Ideal) x1 (ix1 e) = Cert.Spec.wrapW (val_main_v1 (F := Ideal) x1 (ix1 e)) := by
  rw [val_main_v54_apply, val_main_v51_apply, val_main_v53_apply, val_main_v50_apply, val_main_v52_apply]
  rfl

/-- The same word as entry e of the one-column list the gather takes. -/
theorem v55_at (e : Fin 1600000) :
    val_main_v55 (F := Ideal) x1 (Cert.LibGatherRows.rowIdx e) = Cert.Spec.wrapW (val_main_v1 (F := Ideal) x1 (ix1 e)) := by
  rw [val_main_v55_apply]
  have hi : idx_main_v55 (Cert.LibGatherRows.rowIdx e) = ix1 e := funext fun a => by
    match a with
    | ⟨0, _⟩ => rfl
  rw [hi, v54_at]

/-- The target word of edge e after the wrap. -/
theorem v65_at (e : Fin 1600000) :
    val_main_v65 (F := Ideal) x1 (ix1 e) = Cert.Spec.wrapW (val_main_v3 (F := Ideal) x1 (ix1 e)) := by
  rw [val_main_v65_apply, val_main_v62_apply, val_main_v64_apply, val_main_v61_apply, val_main_v63_apply]
  rfl

theorem v66_at (e : Fin 1600000) :
    val_main_v66 (F := Ideal) x1 (Cert.LibGatherRows.rowIdx e) = Cert.Spec.wrapW (val_main_v3 (F := Ideal) x1 (ix1 e)) := by
  rw [val_main_v66_apply]
  have hi : idx_main_v66 (Cert.LibGatherRows.rowIdx e) = ix1 e := funext fun a => by
    match a with
    | ⟨0, _⟩ => rfl
  rw [hi, v65_at]

/-! ## The gathered rows and the two affine maps -/

/-- Entry (e, c) of the source rows: the hidden row of the node the source word names. -/
theorem v56_at (e : Fin 1600000) (c : Fin 32) :
    val_main_v56 (F := Ideal) x0 x1 x2 x3 (ix2 e c)
      = val_main_v49 (F := Ideal) x0 x1 x2 x3 (ix2 (Cert.Spec.node (val_main_v1 (F := Ideal) x1 (ix1 e))) c) := by
  unfold val_main_v56
  refine (Cert.LibGatherRows.host_gather_rows_apply
    Cert.ReferenceIdeal.Gen.gather_S100000x32_S1600000x1_S1600000x32_1_0_n_n_0_1_132_wf (by omega : 0 < 100000)
    gather_S100000x32_S1600000x1_S1600000x32_1_0_n_n_0_1_132 rfl _ _ e c).trans ?_
  rw [v55_at]
  rfl

/-- Entry (e, c) of the target rows. -/
theorem v67_at (e : Fin 1600000) (c : Fin 32) :
    val_main_v67 (F := Ideal) x0 x1 x2 x3 (ix2 e c)
      = val_main_v49 (F := Ideal) x0 x1 x2 x3 (ix2 (Cert.Spec.node (val_main_v3 (F := Ideal) x1 (ix1 e))) c) := by
  unfold val_main_v67
  refine (Cert.LibGatherRows.host_gather_rows_apply
    Cert.ReferenceIdeal.Gen.gather_S100000x32_S1600000x1_S1600000x32_1_0_n_n_0_1_132_wf (by omega : 0 < 100000)
    gather_S100000x32_S1600000x1_S1600000x32_1_0_n_n_0_1_132 rfl _ _ e c).trans ?_
  rw [v66_at]
  rfl

/-- The source rows times the first matrix, at (e, k). -/
theorem v57_at (e : Fin 1600000) (k : Fin 8) :
    val_main_v57 (F := Ideal) x0 x1 x2 x3 x6 (ix2 e k)
      = ∑ j : Fin 32, val_main_v49 (F := Ideal) x0 x1 x2 x3 (ix2 (Cert.Spec.node (val_main_v1 (F := Ideal) x1 (ix1 e))) j) * x6 (ix2 j k) := by
  rw [val_main_v57_apply]
  refine Finset.sum_congr rfl fun j _ => ?_
  have hl : lidx_main_v57 (ix2 e k) j = ix2 e j := funext fun a => by
    match a with
    | ⟨0, _⟩ => rfl
    | ⟨1, _⟩ => rfl
  have hr : ridx_main_v57 (ix2 e k) j = ix2 j k := funext fun a => by
    match a with
    | ⟨0, _⟩ => rfl
    | ⟨1, _⟩ => rfl
  rw [hl, hr, v56_at]

/-- The target rows times the second matrix, at (e, k). -/
theorem v68_at (e : Fin 1600000) (k : Fin 8) :
    val_main_v68 (F := Ideal) x0 x1 x2 x3 x8 (ix2 e k)
      = ∑ j : Fin 32, val_main_v49 (F := Ideal) x0 x1 x2 x3 (ix2 (Cert.Spec.node (val_main_v3 (F := Ideal) x1 (ix1 e))) j) * x8 (ix2 j k) := by
  rw [val_main_v68_apply]
  refine Finset.sum_congr rfl fun j _ => ?_
  have hl : lidx_main_v68 (ix2 e k) j = ix2 e j := funext fun a => by
    match a with
    | ⟨0, _⟩ => rfl
    | ⟨1, _⟩ => rfl
  have hr : ridx_main_v68 (ix2 e k) j = ix2 j k := funext fun a => by
    match a with
    | ⟨0, _⟩ => rfl
    | ⟨1, _⟩ => rfl
  rw [hl, hr, v67_at]

/-- The first bias spread over the edges, at (e, k). -/
theorem v59_at (e : Fin 1600000) (k : Fin 8) : val_main_v59 (F := Ideal) x7 (ix2 e k) = x7 (ix1 k) := by
  rw [val_main_v59_apply, val_main_v58_apply]
  exact congrArg x7 (funext fun a => by
    match a with
    | ⟨0, _⟩ => rfl)

/-- The second bias spread over the edges, at (e, k). -/
theorem v70_at (e : Fin 1600000) (k : Fin 8) : val_main_v70 (F := Ideal) x9 (ix2 e k) = x9 (ix1 k) := by
  rw [val_main_v70_apply, val_main_v69_apply]
  exact congrArg x9 (funext fun a => by
    match a with
    | ⟨0, _⟩ => rfl)

/-- The source's eight numbers: the first affine map of the source node's hidden row. -/
theorem v60_at (e : Fin 1600000) (k : Fin 8) :
    val_main_v60 (F := Ideal) x0 x1 x2 x3 x6 x7 (ix2 e k)
      = Cert.Spec.f1 (val_main_v49 (F := Ideal) x0 x1 x2 x3) x6 x7 (Cert.Spec.node (val_main_v1 (F := Ideal) x1 (ix1 e))) k := by
  rw [val_main_v60_apply, v57_at, v59_at]
  rfl

/-- The target's eight numbers: the second affine map of the target node's hidden row. -/
theorem v71_at (e : Fin 1600000) (k : Fin 8) :
    val_main_v71 (F := Ideal) x0 x1 x2 x3 x8 x9 (ix2 e k)
      = Cert.Spec.f1 (val_main_v49 (F := Ideal) x0 x1 x2 x3) x8 x9 (Cert.Spec.node (val_main_v3 (F := Ideal) x1 (ix1 e))) k := by
  rw [val_main_v71_apply, v68_at, v70_at]
  rfl

/-! ## The sixteen features, the logit and the gate -/

/-- The edge's sixteen features: the source's eight numbers, then the target's. -/
theorem v72_at (e : Fin 1600000) (k : Fin 16) :
    val_main_v72 (F := Ideal) x0 x1 x2 x3 x6 x7 x8 x9 (ix2 e k)
      = Cert.Spec.cat16
          (Cert.Spec.f1 (val_main_v49 (F := Ideal) x0 x1 x2 x3) x6 x7 (Cert.Spec.node (val_main_v1 (F := Ideal) x1 (ix1 e))))
          (Cert.Spec.f1 (val_main_v49 (F := Ideal) x0 x1 x2 x3) x8 x9 (Cert.Spec.node (val_main_v3 (F := Ideal) x1 (ix1 e)))) k := by
  unfold val_main_v72 Cert.Spec.cat16
  by_cases hk : k.val < 8
  · rw [dif_pos hk]
    exact (Cert.LibConcatCols.concat_cols_left _ _ _ e (⟨k.val, hk⟩ : Fin 8) k rfl).trans (v60_at x0 x1 x2 x3 x6 x7 e ⟨k.val, hk⟩)
  · rw [dif_neg hk]
    exact (Cert.LibConcatCols.concat_cols_right _ _ _ e (⟨k.val - 8, by omega⟩ : Fin 8) k (by show k.val = 8 + (k.val - 8); omega)).trans
      (v71_at x0 x1 x2 x3 x8 x9 e ⟨k.val - 8, by omega⟩)

/-- The features' inner product with the attention vector. -/
theorem v73_at (e : Fin 1600000) :
    val_main_v73 (F := Ideal) x0 x1 x2 x3 x6 x7 x8 x9 x10 (ix2 e (0 : Fin 1))
      = ∑ k : Fin 16, Cert.Spec.cat16
          (Cert.Spec.f1 (val_main_v49 (F := Ideal) x0 x1 x2 x3) x6 x7 (Cert.Spec.node (val_main_v1 (F := Ideal) x1 (ix1 e))))
          (Cert.Spec.f1 (val_main_v49 (F := Ideal) x0 x1 x2 x3) x8 x9 (Cert.Spec.node (val_main_v3 (F := Ideal) x1 (ix1 e)))) k
            * x10 (ix2 k (0 : Fin 1)) := by
  rw [val_main_v73_apply]
  refine Finset.sum_congr rfl fun k _ => ?_
  have hl : lidx_main_v73 (ix2 e (0 : Fin 1)) k = ix2 e k := funext fun a => by
    match a with
    | ⟨0, _⟩ => rfl
    | ⟨1, _⟩ => rfl
  have hr : ridx_main_v73 (ix2 e (0 : Fin 1)) k = ix2 k (0 : Fin 1) := funext fun a => by
    match a with
    | ⟨0, _⟩ => rfl
    | ⟨1, _⟩ => rfl
  rw [hl, hr, v72_at]

/-- The attention bias spread over the edges. -/
theorem v75_at (e : Fin 1600000) : val_main_v75 (F := Ideal) x11 (ix2 e (0 : Fin 1)) = x11 (ix1 (0 : Fin 1)) := by
  rw [val_main_v75_apply, val_main_v74_apply]
  exact congrArg x11 (funext fun a => by
    match a with
    | ⟨0, _⟩ => rfl)

/-- The f32 word of 1.0 is the number one. -/
theorem oneW_eq : Ideal.ofBits .f32 0x3F800000#32 = (1 : EReal) := by
  simp [Ideal.ofBits, Ideal.ieee, -EReal.coe_mul]; norm_num

/-- One over one plus the exponential of the negation, with the ones spelt as words, is the logistic function. -/
theorem logistic_words (z : EReal) :
    Ideal.div Cert.Spec.oneW (Cert.Spec.oneW + Ideal.exp (-z)) = Ideal.logistic z := by
  show Ideal.div (Ideal.ofBits .f32 0x3F800000#32) (Ideal.ofBits .f32 0x3F800000#32 + Ideal.exp (-z)) = _
  rw [oneW_eq]; rfl

/-- The broadcast constants of the gate, read at an entry: the words 0.0, 1.0 and 1.01. -/
theorem call1_v0_at (i : S1600000x1.Idx) : val_main_call1_v0 (F := Ideal) i = Cert.Spec.zeroW := by
  rw [val_main_call1_v0_apply, val_main_call1_cst_apply]; rfl

theorem v80_at (i : S1600000x1.Idx) : val_main_v80 (F := Ideal) i = Cert.Spec.oneW := by
  rw [val_main_v80_apply, val_main_cst_14_apply]; rfl

theorem v82_at (i : S1600000x1.Idx) : val_main_v82 (F := Ideal) i = Cert.Spec.oneW := by
  rw [val_main_v82_apply, val_main_cst_15_apply]; rfl

theorem v84_at (i : S1600000x1.Idx) : val_main_v84 (F := Ideal) i = Cert.Spec.c101W := by
  rw [val_main_v84_apply, val_main_cst_16_apply]; rfl

theorem v86_at (i : S1600000x1.Idx) : val_main_v86 (F := Ideal) i = Cert.Spec.zeroW := by
  rw [val_main_v86_apply, val_main_cst_17_apply]; rfl

theorem call2_v1_at (i : S1600000x1.Idx) : val_main_call2_v1 (F := Ideal) i = Cert.Spec.zeroW := by
  rw [val_main_call2_v1_apply, val_main_call2_v0_apply, val_main_cst_18_apply]; rfl

theorem call2_v4_at (i : S1600000x1.Idx) : val_main_call2_v4 (F := Ideal) i = Cert.Spec.oneW := by
  rw [val_main_call2_v4_apply, val_main_call2_v3_apply, val_main_cst_19_apply]; rfl

/-- The rectified logit. -/
theorem v77_at (i : S1600000x1.Idx) :
    val_main_v77 (F := Ideal) x0 x1 x2 x3 x6 x7 x8 x9 x10 x11 i
      = max (val_main_v76 (F := Ideal) x0 x1 x2 x3 x6 x7 x8 x9 x10 x11 i) Cert.Spec.zeroW := by
  rw [val_main_v77_apply, call1_v0_at, Ideal.maximumf_def]

/-- The logistic of the rectified logit, as the program spells it: one over one plus the exponential of the negation. -/
theorem v83_at (i : S1600000x1.Idx) :
    val_main_v83 (F := Ideal) x0 x1 x2 x3 x6 x7 x8 x9 x10 x11 i
      = Ideal.logistic (val_main_v77 (F := Ideal) x0 x1 x2 x3 x6 x7 x8 x9 x10 x11 i) := by
  rw [val_main_v83_apply, v82_at, val_main_v81_apply, v80_at, val_main_v79_apply, val_main_v78_apply,
    Ideal.hostDivf_def, Ideal.addf_def, Ideal.hostUnary_exp_def, Ideal.hostNegf_def, Ideal.negf_def]
  exact logistic_words _

/-- The logistic stretched by 1.01, moved by 0.0 and clipped to [0, 1]. -/
theorem v88_at (i : S1600000x1.Idx) :
    val_main_v88 (F := Ideal) x0 x1 x2 x3 x6 x7 x8 x9 x10 x11 i
      = min Cert.Spec.oneW (max Cert.Spec.zeroW
          (Ideal.logistic (val_main_v77 (F := Ideal) x0 x1 x2 x3 x6 x7 x8 x9 x10 x11 i) * Cert.Spec.c101W + Cert.Spec.zeroW)) := by
  rw [val_main_v88_apply, call2_v4_at, val_main_call2_v2_apply, call2_v1_at, val_main_v87_apply, v86_at,
    val_main_v85_apply, v84_at, v83_at, Ideal.minimumf_def, Ideal.maximumf_def, Ideal.addf_def, Ideal.mulf_def]

/-- From the logit to the weight: the program's rectify, logistic, stretch, clip and product are the gate. -/
theorem v89_at (i : S1600000x1.Idx) :
    val_main_v89 (F := Ideal) x0 x1 x2 x3 x6 x7 x8 x9 x10 x11 i
      = Cert.Spec.gate (val_main_v76 (F := Ideal) x0 x1 x2 x3 x6 x7 x8 x9 x10 x11 i) := by
  unfold Cert.Spec.gate
  rw [val_main_v89_apply, v88_at, v77_at, Ideal.mulf_def]

/-! ## The weight of an edge -/

/-- THE REFERENCE'S WEIGHT OF EDGE e is the gate of the edge's logit, as the specification spells it. -/
theorem v90_apply (e : Fin 1600000) :
    val_main_v90 (F := Ideal) x0 x1 x2 x3 x6 x7 x8 x9 x10 x11 (ix1 e)
      = Cert.Spec.mw (val_main_v49 (F := Ideal) x0 x1 x2 x3) x6 x7 x8 x9 x10 x11
          (val_main_v1 (F := Ideal) x1) (val_main_v3 (F := Ideal) x1) e := by
  unfold Cert.Spec.mw
  have hi : idx_main_v90 (ix1 e) = ix2 e (0 : Fin 1) := funext fun a => by
    match a with
    | ⟨0, _⟩ => exact Fin.ext (Nat.div_one _)
    | ⟨1, _⟩ => rfl
  rw [val_main_v90_apply, hi, v89_at, val_main_v76_apply, v73_at, v75_at, Ideal.addf_def]

end Cert.RefEdge

end
-- ==== Proof.Bridge.lean ====
/-
  The two programs compute one function of the arguments.

  At the ideal instance every array is a table of extended reals.  The kernel program's three pallas regions compute,
  block by block, the products x · W0, then h · Wnb + bnb, h · Wself + bself and h · W1, then the gate of the
  per-edge logits; the reference computes the same tables with whole-array operations, gathering the hidden rows of
  an edge's endpoints BEFORE the two small affine maps where the kernel program gathers AFTER them.  A gather only
  selects rows, so the two orders give the same numbers; a product's two factors may be exchanged; nothing else
  differs.  Between and after the regions both programs run the same graph aggregation on equal tables.
-/
import proofs.«161898_j54245436949038_1_alg».proof.Proof.KTail
import proofs.«161898_j54245436949038_1_alg».proof.Proof.KEdge
import proofs.«161898_j54245436949038_1_alg».proof.Proof.Region0
import proofs.«161898_j54245436949038_1_alg».proof.Proof.RefTail
import proofs.«161898_j54245436949038_1_alg».proof.Proof.RefEdge

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.ReferenceIdeal.ReadP (val_main_v1 val_main_v3 val_main_v5 val_main_v49 val_main_v90 val_main_v91 val_main_v135)

variable (m : (ℓ : Loc nD τ sig) → Buf (Elt Ideal) ℓ) (ρ : Dev nD → PrngReg)

/-- The two endpoint lists are the two rows of the edge array, in either program's spelling. -/
theorem row_eq (x1 : (⟨S2x1600000, .i32⟩ : BufTy).Contents (Elt Ideal)) :
    Cert.KernelIdeal.KWalk.edgeRow0 (F := Ideal) x1 = val_main_v1 (F := Ideal) x1 := rfl
theorem col_eq (x1 : (⟨S2x1600000, .i32⟩ : BufTy).Contents (Elt Ideal)) :
    Cert.KernelIdeal.KWalk.edgeRow1 (F := Ideal) x1 = val_main_v3 (F := Ideal) x1 := rfl

/-- The reference's product x · W0 at an entry. -/
theorem v5_at (x0 : (⟨Cert.ReferenceIdeal.S100000x512, .f32⟩ : BufTy).Contents (Elt Ideal))
    (x2 : (⟨Cert.ReferenceIdeal.S512x32, .f32⟩ : BufTy).Contents (Elt Ideal)) (n : Fin 100000) (j : Fin 32) :
    val_main_v5 (F := Ideal) x0 x2 (ix2 n j) = Cert.KernelIdeal.R0.prod x0 x2 n j := by
  rw [Cert.ReferenceIdeal.ReadP.val_main_v5_apply]
  unfold Cert.KernelIdeal.R0.prod
  refine Finset.sum_congr rfl fun k _ => ?_
  congr 2 <;> (funext a; match a with | ⟨0, _⟩ => rfl | ⟨1, _⟩ => rfl)

/-- The reference's product h · W1 at an entry. -/
theorem v91_at (x0 : (⟨Cert.ReferenceIdeal.S100000x512, .f32⟩ : BufTy).Contents (Elt Ideal))
    (x1 : (⟨Cert.ReferenceIdeal.S2x1600000, .i32⟩ : BufTy).Contents (Elt Ideal))
    (x2 : (⟨Cert.ReferenceIdeal.S512x32, .f32⟩ : BufTy).Contents (Elt Ideal))
    (x3 : (⟨Cert.ReferenceIdeal.S32, .f32⟩ : BufTy).Contents (Elt Ideal))
    (x4 : (⟨Cert.ReferenceIdeal.S32x8, .f32⟩ : BufTy).Contents (Elt Ideal)) (n : Fin 100000) (k : Fin 8) :
    val_main_v91 (F := Ideal) x0 x1 x2 x3 x4 (ix2 n k)
      = Cert.KernelIdeal.R1.prod (val_main_v49 (F := Ideal) x0 x1 x2 x3) x4 n k := by
  rw [Cert.ReferenceIdeal.ReadP.val_main_v91_apply]
  unfold Cert.KernelIdeal.R1.prod
  refine Finset.sum_congr rfl fun j _ => ?_
  congr 2 <;> (funext a; match a with | ⟨0, _⟩ => rfl | ⟨1, _⟩ => rfl)

/-- The first region's output is the reference's product x · W0. -/
theorem xw0_eq (c : Dev nD) :
    W2 m ρ c (Proc.devRef .tc main_v4)
      = val_main_v5 (F := Ideal) (m ((c : Thread nD τ).loc main_arg0)) (m ((c : Thread nD τ).loc main_arg2)) := by
  rw [show W2 m ρ c (Proc.devRef .tc main_v4) = (dat0 (V1 m ρ) c).arrAt 2 cfg0.N from W2_arr m ρ c 2]
  funext i
  obtain ⟨n, j, rfl⟩ : ∃ (n : Fin 100000) (j : Fin 32), i = ix2 n j := ⟨i 0, i 1, eq_ix2 i⟩
  rw [Cert.KernelIdeal.R0.final (V1 m ρ) c n j,
    show V1 m ρ c main_arg0 = m ((c : Thread nD τ).loc main_arg0) from Cert.KernelIdeal.KWalk.W1_arg0 m ρ c,
    show V1 m ρ c main_arg2 = m ((c : Thread nD τ).loc main_arg2) from Cert.KernelIdeal.KWalk.W1_arg2 m ρ c]
  exact (v5_at _ _ n j).symm

/-- The hidden features agree. -/
theorem h_eq (c : Dev nD) :
    W5 m ρ c (Proc.devRef .tc main_v49)
      = val_main_v49 (F := Ideal) (m ((c : Thread nD τ).loc main_arg0)) (m ((c : Thread nD τ).loc main_arg1))
          (m ((c : Thread nD τ).loc main_arg2)) (m ((c : Thread nD τ).loc main_arg3)) := by
  rw [Cert.KernelIdeal.KTail.h_eq m ρ c, Cert.RefTail.v49_eq, xw0_eq m ρ c,
    (Cert.KernelIdeal.KWalk.W2_v1_W1 m ρ c).trans (Cert.KernelIdeal.KWalk.W1_v1 m ρ c),
    (Cert.KernelIdeal.KWalk.W2_v3_W1 m ρ c).trans (Cert.KernelIdeal.KWalk.W1_v3 m ρ c),
    Cert.KernelIdeal.KWalk.W2_arg3 m ρ c, row_eq, col_eq]

/-- The second region's third output is the reference's product h · W1. -/
theorem xw1_eq (c : Dev nD) :
    W6 m ρ c (Proc.devRef .tc main_v50_2)
      = val_main_v91 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [show W6 m ρ c (Proc.devRef .tc main_v50_2) = (dat1 (V5 m ρ) c).arrAt 8 cfg1.N from W6_arr m ρ c 8]
  funext i
  obtain ⟨n, k, rfl⟩ : ∃ (n : Fin 100000) (k : Fin 8), i = ix2 n k := ⟨i 0, i 1, eq_ix2 i⟩
  rw [Cert.KernelIdeal.R1.final8 (V5 m ρ) c n k,
    show V5 m ρ c main_v49 = _ from h_eq m ρ c,
    show V5 m ρ c main_arg4 = m ((c : Thread nD τ).loc main_arg4) from Cert.KernelIdeal.KWalk.W5_arg4 m ρ c]
  exact (v91_at _ _ _ _ _ n k).symm

/-- The edge weights agree, edge by edge. -/
theorem mw_eq (c : Dev nD) :
    shapeCast Cert.ReferenceIdeal.S1600000 (W8 m ρ c (Proc.devRef .tc main_v67)) Cert.ReferenceIdeal.Gen.shapeCasts_S1x1600000_S1600000
      = val_main_v90 (F := Ideal) (m ((c : Thread nD τ).loc main_arg0)) (m ((c : Thread nD τ).loc main_arg1))
          (m ((c : Thread nD τ).loc main_arg2)) (m ((c : Thread nD τ).loc main_arg3))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11)) := by
  funext i
  obtain ⟨e, rfl⟩ : ∃ e : Fin 1600000, i = ix1 e := ⟨i 0, eq_ix1 i⟩
  rw [Cert.KernelIdeal.KEdge.mw_apply m ρ c e, Cert.RefEdge.v90_apply, h_eq m ρ c, row_eq, col_eq]

/-- THE RESULTS AGREE: the kernel program's result buffer ends at the reference's result term of the launch
    arguments. -/
theorem result_eq (c : Dev nD) :
    W11 m ρ c (Proc.devRef .tc main_v112)
      = val_main_v135 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11)) := by
  rw [Cert.KernelIdeal.KTail.out_eq m ρ c, Cert.RefTail.v135_eq, mw_eq m ρ c,
    (Cert.KernelIdeal.KWalk.W8_v50_2_W6 m ρ c).trans (xw1_eq m ρ c),
    (Cert.KernelIdeal.KWalk.W8_v1_W6 m ρ c).trans (Cert.KernelIdeal.KEdge.row_W6 m ρ c),
    (Cert.KernelIdeal.KWalk.W8_v3_W6 m ρ c).trans (Cert.KernelIdeal.KEdge.col_W6 m ρ c),
    Cert.KernelIdeal.KWalk.W8_arg5 m ρ c, row_eq, col_eq]

end Cert.Bridge

end
-- ==== Proof.lean ====
/-
  The certificate: a two-layer graph convolution network with a learned edge gate, as three Pallas kernels among host
  operations, against its plain jax.numpy reference — equal results over the extended reals.

  The kernel program multiplies the node features by the first weight matrix in row blocks (bf16 operands, an f32
  accumulator: at the ideal instance a change of format is the identity and the product is the exact sum), aggregates
  over the graph with unit edge weights on the host, computes three small dense maps of the hidden features in one
  fused kernel, gathers the per-edge rows, gates each edge in a third kernel, and aggregates again with the gated
  weights.  The reference gathers the hidden rows of an edge's endpoints first and applies the dense maps to the
  gathered rows; a gather selects rows, so the order does not matter.  The two aggregations are the same host
  operations in both programs.  No law beyond commutativity of a product is used, so the precondition (finite
  inputs) is never opened.  The ideal pass rewrote nothing, so the idealization claim is trivial.  The three frame
  claims are the generated frames of the two kernel programs and the reference's run with its result dropped.
-/
import proofs.«161898_j54245436949038_1_alg».proof.Defs
import proofs.«161898_j54245436949038_1_alg».proof.Proof.Gen.Kernel
import proofs.«161898_j54245436949038_1_alg».proof.Proof.Gen.Kernel.Frame
import proofs.«161898_j54245436949038_1_alg».proof.Proof.Gen.KernelIdeal
import proofs.«161898_j54245436949038_1_alg».proof.Proof.Gen.KernelIdeal.Frame
import proofs.«161898_j54245436949038_1_alg».proof.Proof.Gen.ReferenceIdeal
import proofs.«161898_j54245436949038_1_alg».proof.Proof.Gen.Pre_finite_inputs
import proofs.«161898_j54245436949038_1_alg».proof.Proof.RefRunH
import proofs.«161898_j54245436949038_1_alg».proof.Proof.KRun
import proofs.«161898_j54245436949038_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRunH.run (F := Ideal) m ρ)

/-- Both programs run, and from memories that agree on the arguments their results are equal: the kernel program's
    result buffer ends at the fold of its segments, which is the reference's result term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W11 m ρ c (Proc.devRef .tc Cert.KernelIdeal.main_v112), Cert.KernelIdeal.KRun.run_main (F := Ideal) m ρ, ?_⟩
  refine (θ_run Cert.ReferenceIdeal.defs _ _).mono (fun _ h c => ⟨(h c).1.trans ?_, (h c).2⟩)
    (Cert.RefRunH.run (F := Ideal) m' ρ')
  obtain ⟨e0, e1, e2, e3, e4, e5, e6, e7, e8, e9, e10, e11⟩ := hagree c
  rw [e0, e1, e2, e3, e4, e5, e6, e7, e8, e9, e10, e11]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
